-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S256x2 : Shape := ⟨2, ![256, 2]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg5 : FVec F S_ .f32) (main_arg6 : FVec F S_ .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg5
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S_ .f32 := Host.absf main_arg6
  let main_cst_8 : FVec F S_ .f32 := constant S_ .f32 0x7F800000#32
  let main_v23 : IVec S_ 1 := cmpf .olt main_v22 main_cst_8
  let main_c_9 : IVec S_ 1 := constantI S_ 1 1#1
  let main_v24 : IVec S_ 1 := (fun x v => Host.reduce IntOp.andi x v reducesTo_S_S_d h_S_) main_v23 main_c_9
  let main_v25 : IVec S_ 1 := andi main_v21 main_v24
  main_v25

def fn {F : FTy → Type} [FloatOps F] (main_arg0 : FVec F S4096x4096 .f32) (main_arg1 : FVec F S4096x4096 .f32) (main_arg2 : IVec S256x2 32) (main_arg3 : FVec F S256 .f32) (main_arg4 : FVec F S_ .f32) (main_arg5 : FVec F S_ .f32) (main_arg6 : FVec F S_ .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_v13 main_v15 main_c_5
-- ==== Kernel.lean ====
abbrev S4096x4096 : Shape := ⟨2, ![4096, 4096]⟩
abbrev S256x2 : Shape := ⟨2, ![256, 2]⟩
abbrev S256 : Shape := ⟨1, ![256]⟩
abbrev S_ : Shape := ⟨0, ![]⟩
abbrev S21 : Shape := ⟨1, ![21]⟩
abbrev S21x1 : Shape := ⟨2, ![21, 1]⟩
abbrev S1x21 : Shape := ⟨2, ![1, 21]⟩
abbrev S21x21 : Shape := ⟨2, ![21, 21]⟩
abbrev S256x1x1 : Shape := ⟨3, ![256, 1, 1]⟩
abbrev S1x21x21 : Shape := ⟨3, ![1, 21, 21]⟩
abbrev S256x21x21 : Shape := ⟨3, ![256, 21, 21]⟩
abbrev S1x21x1 : Shape := ⟨3, ![1, 21, 1]⟩
abbrev S256x21x1 : Shape := ⟨3, ![256, 21, 1]⟩
abbrev S1x1x21 : Shape := ⟨3, ![1, 1, 21]⟩
abbrev S256x1x21 : Shape := ⟨3, ![256, 1, 21]⟩
abbrev S256x1 : Shape := ⟨2, ![256, 1]⟩
abbrev S112896 : Shape := ⟨1, ![112896]⟩
abbrev S16777216 : Shape := ⟨1, ![16777216]⟩
abbrev S112896x1 : Shape := ⟨2, ![112896, 1]⟩
abbrev S1x1 : Shape := ⟨2, ![1, 1]⟩
abbrev S2x1x1 : Shape := ⟨3, ![2, 1, 1]⟩
abbrev S128x4096 : Shape := ⟨2, ![128, 4096]⟩
abbrev S1x1x1 : Shape := ⟨3, ![1, 1, 1]⟩
abbrev S128 : Shape := ⟨1, ![128]⟩
abbrev S128x1 : Shape := ⟨2, ![128, 1]⟩
abbrev S1 : Shape := ⟨1, ![1]⟩
abbrev S512x4096 : Shape := ⟨2, ![512, 4096]⟩

abbrev nBuf : Space → Nat
  | .hbm => 143
  | .vmem => 18
  | .smem => 0
  | _ => 0

abbrev hbmTy0_0 (i : Nat) : BufTy := match i % 128 with
  | 0 => ⟨S4096x4096, .f32⟩
  | 1 => ⟨S4096x4096, .f32⟩
  | 2 => ⟨S256x2, .i32⟩
  | 3 => ⟨S256, .f32⟩
  | 4 => ⟨S_, .f32⟩
  | 5 => ⟨S_, .f32⟩
  | 6 => ⟨S_, .f32⟩
  | 7 => ⟨S21, .i32⟩
  | 8 => ⟨S_, .i32⟩
  | 9 => ⟨S21, .i32⟩
  | 10 => ⟨S21, .i32⟩
  | 11 => ⟨S21x1, .i32⟩
  | 12 => ⟨S1x21, .i32⟩
  | 13 => ⟨S21x1, .i32⟩
  | 14 => ⟨S1x21, .i32⟩
  | 15 => ⟨S21x21, .i32⟩
  | 16 => ⟨S21x21, .i32⟩
  | 17 => ⟨S21x21, .i32⟩
  | 18 => ⟨S21x21, .f32⟩
  | 19 => ⟨S256x1x1, .f32⟩
  | 20 => ⟨S_, .f32⟩
  | 21 => ⟨S256x1x1, .f32⟩
  | 22 => ⟨S256x1x1, .f32⟩
  | 23 => ⟨S256x1x1, .f32⟩
  | 24 => ⟨S1x21x21, .f32⟩
  | 25 => ⟨S_, .f32⟩
  | 26 => ⟨S1x21x21, .f32⟩
  | 27 => ⟨S1x21x21, .f32⟩
  | 28 => ⟨S_, .f32⟩
  | 29 => ⟨S256x1x1, .f32⟩
  | 30 => ⟨S256x1x1, .f32⟩
  | 31 => ⟨S256x1x1, .f32⟩
  | 32 => ⟨S256x21x21, .f32⟩
  | 33 => ⟨S256x21x21, .f32⟩
  | 34 => ⟨S256x21x21, .f32⟩
  | 35 => ⟨S256x21x21, .f32⟩
  | 36 => ⟨S256x21x21, .f32⟩
  | 37 => ⟨S256x21x21, .f32⟩
  | 38 => ⟨S256x21x21, .f32⟩
  | 39 => ⟨S256x21x21, .f32⟩
  | 40 => ⟨S21x1, .i32⟩
  | 41 => ⟨S1x21x1, .i32⟩
  | 42 => ⟨S1x21x1, .f32⟩
  | 43 => ⟨S256x21x1, .f32⟩
  | 44 => ⟨S256x21x1, .f32⟩
  | 45 => ⟨S256x21x1, .i1⟩
  | 46 => ⟨S1x21, .i32⟩
  | 47 => ⟨S1x1x21, .i32⟩
  | 48 => ⟨S1x1x21, .f32⟩
  | 49 => ⟨S256x1x21, .f32⟩
  | 50 => ⟨S256x1x21, .f32⟩
  | 51 => ⟨S256x1x21, .i1⟩
  | 52 => ⟨S256x21x21, .i1⟩
  | 53 => ⟨S256x21x21, .i1⟩
  | 54 => ⟨S256x21x21, .i1⟩
  | 55 => ⟨S256x1, .i32⟩
  | 56 => ⟨S256, .i32⟩
  | 57 => ⟨S256x1x1, .i32⟩
  | 58 => ⟨S1x21x1, .i32⟩
  | 59 => ⟨S256x21x1, .i32⟩
  | 60 => ⟨S256x21x1, .i32⟩
  | 61 => ⟨S256x21x1, .i32⟩
  | 62 => ⟨S256x1, .i32⟩
  | 63 => ⟨S256, .i32⟩
  | 64 => ⟨S256x1x1, .i32⟩
  | 65 => ⟨S1x1x21, .i32⟩
  | 66 => ⟨S256x1x21, .i32⟩
  | 67 => ⟨S256x1x21, .i32⟩
  | 68 => ⟨S256x1x21, .i32⟩
  | 69 => ⟨S_, .i32⟩
  | 70 => ⟨S256x21x1, .i32⟩
  | 71 => ⟨S256x21x1, .i1⟩
  | 72 => ⟨S_, .i32⟩
  | 73 => ⟨S256x21x1, .i32⟩
  | 74 => ⟨S256x21x1, .i1⟩
  | 75 => ⟨S256x21x1, .i1⟩
  | 76 => ⟨S_, .i32⟩
  | 77 => ⟨S256x1x21, .i32⟩
  | 78 => ⟨S256x1x21, .i1⟩
  | 79 => ⟨S256x21x21, .i1⟩
  | 80 => ⟨S256x21x21, .i1⟩
  | 81 => ⟨S256x21x21, .i1⟩
  | 82 => ⟨S_, .i32⟩
  | 83 => ⟨S256x1x21, .i32⟩
  | 84 => ⟨S256x1x21, .i1⟩
  | 85 => ⟨S256x21x21, .i1⟩
  | 86 => ⟨S256x21x21, .i1⟩
  | 87 => ⟨S256x21x21, .i1⟩
  | 88 => ⟨S_, .f32⟩
  | 89 => ⟨S256x21x21, .f32⟩
  | 90 => ⟨S256x21x21, .f32⟩
  | 91 => ⟨S_, .i32⟩
  | 92 => ⟨S_, .i32⟩
  | 93 => ⟨S_, .i32⟩
  | 94 => ⟨S256x21x1, .i32⟩
  | 95 => ⟨S256x21x1, .i32⟩
  | 96 => ⟨S_, .i32⟩
  | 97 => ⟨S256x21x1, .i32⟩
  | 98 => ⟨S256x21x1, .i32⟩
  | 99 => ⟨S_, .i32⟩
  | 100 => ⟨S256x21x1, .i32⟩
  | 101 => ⟨S256x21x1, .i32⟩
  | 102 => ⟨S_, .i32⟩
  | 103 => ⟨S_, .i32⟩
  | 104 => ⟨S_, .i32⟩
  | 105 => ⟨S256x1x21, .i32⟩
  | 106 => ⟨S256x1x21, .i32⟩
  | 107 => ⟨S_, .i32⟩
  | 108 => ⟨S256x1x21, .i32⟩
  | 109 => ⟨S256x1x21, .i32⟩
  | 110 => ⟨S256x21x21, .i32⟩
  | 111 => ⟨S256x21x21, .i32⟩
  | 112 => ⟨S256x21x21, .i32⟩
  | 113 => ⟨S112896, .i32⟩
  | 114 => ⟨S16777216, .f32⟩
  | 115 => ⟨S112896, .f32⟩
  | 116 => ⟨S_, .i32⟩
  | 117 => ⟨S112896, .i32⟩
  | 118 => ⟨S112896, .i1⟩
  | 119 => ⟨S_, .i32⟩
  | 120 => ⟨S112896, .i32⟩
  | 121 => ⟨S112896, .i32⟩
  | 122 => ⟨S112896, .i32⟩
  | 123 => ⟨S112896x1, .i32⟩
  | 124 => ⟨S16777216, .f32⟩
  | 125 => ⟨S4096x4096, .f32⟩
  | 126 => ⟨S1x1, .f32⟩
  | 127 => ⟨S4096x4096, .f32⟩
  | _ => ⟨S4096x4096, .f32⟩

abbrev hbmTy0_1 (i : Nat) : BufTy := match i % 128 with
  | 0 => ⟨S2x1x1, .f32⟩
  | 1 => ⟨S2x1x1, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .i1⟩
  | 10 => ⟨S_, .f32⟩
  | 11 => ⟨S_, .f32⟩
  | 12 => ⟨S_, .f32⟩
  | 13 => ⟨S1x1, .f32⟩
  | 14 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x1, .f32⟩
  | .local _ .vmem, ⟨7, _⟩ => ⟨S128x4096, .f32⟩
  | .local _ .vmem, ⟨8, _⟩ => ⟨S128x4096, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S512x4096, .f32⟩
  | .local _ .vmem, ⟨14, _⟩ => ⟨S512x4096, .f32⟩
  | .local _ .vmem, ⟨15, _⟩ => ⟨S1x1, .f32⟩
  | .local _ .vmem, ⟨16, _⟩ => ⟨S512x4096, .f32⟩
  | .local _ .vmem, ⟨17, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c_2 : Ref sig .tc := ⟨.hbm, 69, rfl⟩
abbrev main_v58 : Ref sig .tc := ⟨.hbm, 70, rfl⟩
abbrev main_v59 : Ref sig .tc := ⟨.hbm, 71, rfl⟩
abbrev main_c_3 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c_4 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_5 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_call0_v0 : Ref sig .tc := ⟨.hbm, 89, rfl⟩
abbrev main_v73 : Ref sig .tc := ⟨.hbm, 90, rfl⟩
abbrev main_c_7 : Ref sig .tc := ⟨.hbm, 91, rfl⟩
abbrev main_c_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v74 : Ref sig .tc := ⟨.hbm, 98, rfl⟩
abbrev main_c_9 : Ref sig .tc := ⟨.hbm, 99, rfl⟩
abbrev main_v75 : Ref sig .tc := ⟨.hbm, 100, rfl⟩
abbrev main_v76 : Ref sig .tc := ⟨.hbm, 101, rfl⟩
abbrev main_c_10 : Ref sig .tc := ⟨.hbm, 102, rfl⟩
abbrev main_c_11 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_12 : Ref sig .tc := ⟨.hbm, 116, rfl⟩
abbrev main_v84 : Ref sig .tc := ⟨.hbm, 117, rfl⟩
abbrev main_v85 : Ref sig .tc := ⟨.hbm, 118, rfl⟩
abbrev main_c_13 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93_0 : Ref sig .tc := ⟨.hbm, 127, rfl⟩
abbrev main_v93_1 : Ref sig .tc := ⟨.hbm, 128, rfl⟩
abbrev main_v93_2 : Ref sig .tc := ⟨.hbm, 129, rfl⟩
abbrev main_cst_14 : Ref sig .tc := ⟨.hbm, 130, rfl⟩
abbrev main_v94 : Ref sig .tc := ⟨.hbm, 131, rfl⟩
abbrev main_v95 : Ref sig .tc := ⟨.hbm, 132, rfl⟩
abbrev main_cst_15 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_cst_17 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S21 : S_.BroadcastsInDim S21 (![] : Fin 0 → Fin S21.rank)
  bcast_S21_S21x1_0 : S21.BroadcastsInDim S21x1 (![0] : Fin 1 → Fin S21x1.rank)
  bcast_S21_S1x21_1 : S21.BroadcastsInDim S1x21 (![1] : Fin 1 → Fin S1x21.rank)
  bcast_S21x1_S21x21_0_1 : S21x1.BroadcastsInDim S21x21 (![0, 1] : Fin 2 → Fin S21x21.rank)
  bcast_S1x21_S21x21_0_1 : S1x21.BroadcastsInDim S21x21 (![0, 1] : Fin 2 → Fin S21x21.rank)
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S21x21_S1x21x21_1_2 : S21x21.BroadcastsInDim S1x21x21 (![1, 2] : Fin 2 → Fin S1x21x21.rank)
  bcast_S_S1x21x21 : S_.BroadcastsInDim S1x21x21 (![] : Fin 0 → Fin S1x21x21.rank)
  bcast_S1x21x21_S256x21x21_0_1_2 : S1x21x21.BroadcastsInDim S256x21x21 (![0, 1, 2] : Fin 3 → Fin S256x21x21.rank)
  bcast_S256x1x1_S256x21x21_0_1_2 : S256x1x1.BroadcastsInDim S256x21x21 (![0, 1, 2] : Fin 3 → Fin S256x21x21.rank)
  bcast_S_S256x21x21 : S_.BroadcastsInDim S256x21x21 (![] : Fin 0 → Fin S256x21x21.rank)
  bcast_S21x1_S1x21x1_1_2 : S21x1.BroadcastsInDim S1x21x1 (![1, 2] : Fin 2 → Fin S1x21x1.rank)
  bcast_S1x21x1_S256x21x1_0_1_2 : S1x21x1.BroadcastsInDim S256x21x1 (![0, 1, 2] : Fin 3 → Fin S256x21x1.rank)
  bcast_S256x1x1_S256x21x1_0_1_2 : S256x1x1.BroadcastsInDim S256x21x1 (![0, 1, 2] : Fin 3 → Fin S256x21x1.rank)
  bcast_S1x21_S1x1x21_1_2 : S1x21.BroadcastsInDim S1x1x21 (![1, 2] : Fin 2 → Fin S1x1x21.rank)
  bcast_S1x1x21_S256x1x21_0_1_2 : S1x1x21.BroadcastsInDim S256x1x21 (![0, 1, 2] : Fin 3 → Fin S256x1x21.rank)
  bcast_S256x1x1_S256x1x21_0_1_2 : S256x1x1.BroadcastsInDim S256x1x21 (![0, 1, 2] : Fin 3 → Fin S256x1x21.rank)
  bcast_S256x21x1_S256x21x21_0_1_2 : S256x21x1.BroadcastsInDim S256x21x21 (![0, 1, 2] : Fin 3 → Fin S256x21x21.rank)
  bcast_S256x1x21_S256x21x21_0_1_2 : S256x1x21.BroadcastsInDim S256x21x21 (![0, 1, 2] : Fin 3 → Fin S256x21x21.rank)
  slices_S256x2_S256x1_0_0 : S256x2.Slices ![0, 0] S256x1
  shapeCasts_S256x1_S256 : S256x1.ShapeCasts S256
  slices_S256x2_S256x1_0_1 : S256x2.Slices ![0, 1] S256x1
  bcast_S_S256x21x1 : S_.BroadcastsInDim S256x21x1 (![] : Fin 0 → Fin S256x21x1.rank)
  bcast_S_S256x1x21 : S_.BroadcastsInDim S256x1x21 (![] : Fin 0 → Fin S256x1x21.rank)
  shapeCasts_S256x21x21_S112896 : S256x21x21.ShapeCasts S112896
  bcast_S_S16777216 : S_.BroadcastsInDim S16777216 (![] : Fin 0 → Fin S16777216.rank)
  bcast_S_S112896 : S_.BroadcastsInDim S112896 (![] : Fin 0 → Fin S112896.rank)
  bcast_S112896_S112896x1_0 : S112896.BroadcastsInDim S112896x1 (![0] : Fin 1 → Fin S112896x1.rank)
  shapeCasts_S16777216_S4096x4096 : S16777216.ShapeCasts S4096x4096
  shapeCasts_S_S1x1 : S_.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S1x1_S128x4096 : S1x1.Broadcasts S128x4096
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  reducesTo_S2x1x1_S_d0_1_2 : S2x1x1.ReducesTo [0, 1, 2] S_
  h_S_ : 0 < S_.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  broadcasts_S1x1_S512x4096 : S1x1.Broadcasts S512x4096
  scatter_S16777216_S112896x1_S112896_n_0_0_1_wf : ScatterDims.WF S16777216 S112896x1 S112896 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .f32 = 32 ∨ (Rect.block (s := S4096x4096) S512x4096.size (cc1_transform_2 i) (hinb1_2 i)).WholeWords (EltTy.packing .f32)

variable [Facts₀]

def scatter_S16777216_S112896x1_S112896_n_0_0_1 : ScatterDims S16777216 S112896x1 S112896 where
  updateWindowDims := []
  insertedWindowDims := [0]
  scatterDimsToOperandDims := [0]
  indexVectorDim := 1
  wf := scatter_S16777216_S112896x1_S112896_n_0_0_1_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v91) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v92) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v93_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v93_1) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v93_2) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v93_0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v102) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S256x2 : Shape := ⟨2, ![256, 2]⟩
abbrev S256 : Shape := ⟨1, ![256]⟩
abbrev S_ : Shape := ⟨0, ![]⟩
abbrev S21 : Shape := ⟨1, ![21]⟩
abbrev S21x1 : Shape := ⟨2, ![21, 1]⟩
abbrev S1x21 : Shape := ⟨2, ![1, 21]⟩
abbrev S21x21 : Shape := ⟨2, ![21, 21]⟩
abbrev S256x1x1 : Shape := ⟨3, ![256, 1, 1]⟩
abbrev S1x21x21 : Shape := ⟨3, ![1, 21, 21]⟩
abbrev S256x21x21 : Shape := ⟨3, ![256, 21, 21]⟩
abbrev S1x21x1 : Shape := ⟨3, ![1, 21, 1]⟩
abbrev S256x21x1 : Shape := ⟨3, ![256, 21, 1]⟩
abbrev S1x1x21 : Shape := ⟨3, ![1, 1, 21]⟩
abbrev S256x1x21 : Shape := ⟨3, ![256, 1, 21]⟩
abbrev S256x1 : Shape := ⟨2, ![256, 1]⟩
abbrev S112896 : Shape := ⟨1, ![112896]⟩
abbrev S16777216 : Shape := ⟨1, ![16777216]⟩
abbrev S112896x1 : Shape := ⟨2, ![112896, 1]⟩

abbrev nBuf : Space → Nat
  | .hbm => 165
  | .vmem => 0
  | .smem => 0
  | _ => 0

abbrev hbmTy0_0 (i : Nat) : BufTy := match i % 128 with
  | 0 => ⟨S4096x4096, .f32⟩
  | 1 => ⟨S4096x4096, .f32⟩
  | 2 => ⟨S256x2, .i32⟩
  | 3 => ⟨S256, .f32⟩
  | 4 => ⟨S_, .f32⟩
  | 5 => ⟨S_, .f32⟩
  | 6 => ⟨S_, .f32⟩
  | 7 => ⟨S21, .i32⟩
  | 8 => ⟨S_, .i32⟩
  | 9 => ⟨S21, .i32⟩
  | 10 => ⟨S21, .i32⟩
  | 11 => ⟨S21x1, .i32⟩
  | 12 => ⟨S1x21, .i32⟩
  | 13 => ⟨S21x1, .i32⟩
  | 14 => ⟨S1x21, .i32⟩
  | 15 => ⟨S21x21, .i32⟩
  | 16 => ⟨S21x21, .i32⟩
  | 17 => ⟨S21x21, .i32⟩
  | 18 => ⟨S21x21, .f32⟩
  | 19 => ⟨S256x1x1, .f32⟩
  | 20 => ⟨S_, .f32⟩
  | 21 => ⟨S256x1x1, .f32⟩
  | 22 => ⟨S256x1x1, .f32⟩
  | 23 => ⟨S256x1x1, .f32⟩
  | 24 => ⟨S1x21x21, .f32⟩
  | 25 => ⟨S_, .f32⟩
  | 26 => ⟨S1x21x21, .f32⟩
  | 27 => ⟨S1x21x21, .f32⟩
  | 28 => ⟨S_, .f32⟩
  | 29 => ⟨S256x1x1, .f32⟩
  | 30 => ⟨S256x1x1, .f32⟩
  | 31 => ⟨S256x1x1, .f32⟩
  | 32 => ⟨S256x21x21, .f32⟩
  | 33 => ⟨S256x21x21, .f32⟩
  | 34 => ⟨S256x21x21, .f32⟩
  | 35 => ⟨S256x21x21, .f32⟩
  | 36 => ⟨S256x21x21, .f32⟩
  | 37 => ⟨S256x21x21, .f32⟩
  | 38 => ⟨S256x21x21, .f32⟩
  | 39 => ⟨S256x21x21, .f32⟩
  | 40 => ⟨S21x1, .i32⟩
  | 41 => ⟨S1x21x1, .i32⟩
  | 42 => ⟨S1x21x1, .f32⟩
  | 43 => ⟨S256x21x1, .f32⟩
  | 44 => ⟨S256x21x1, .f32⟩
  | 45 => ⟨S256x21x1, .i1⟩
  | 46 => ⟨S1x21, .i32⟩
  | 47 => ⟨S1x1x21, .i32⟩
  | 48 => ⟨S1x1x21, .f32⟩
  | 49 => ⟨S256x1x21, .f32⟩
  | 50 => ⟨S256x1x21, .f32⟩
  | 51 => ⟨S256x1x21, .i1⟩
  | 52 => ⟨S256x21x21, .i1⟩
  | 53 => ⟨S256x21x21, .i1⟩
  | 54 => ⟨S256x21x21, .i1⟩
  | 55 => ⟨S256x1, .i32⟩
  | 56 => ⟨S256, .i32⟩
  | 57 => ⟨S256x1x1, .i32⟩
  | 58 => ⟨S1x21x1, .i32⟩
  | 59 => ⟨S256x21x1, .i32⟩
  | 60 => ⟨S256x21x1, .i32⟩
  | 61 => ⟨S256x21x1, .i32⟩
  | 62 => ⟨S256x1, .i32⟩
  | 63 => ⟨S256, .i32⟩
  | 64 => ⟨S256x1x1, .i32⟩
  | 65 => ⟨S1x1x21, .i32⟩
  | 66 => ⟨S256x1x21, .i32⟩
  | 67 => ⟨S256x1x21, .i32⟩
  | 68 => ⟨S256x1x21, .i32⟩
  | 69 => ⟨S_, .i32⟩
  | 70 => ⟨S256x21x1, .i32⟩
  | 71 => ⟨S256x21x1, .i1⟩
  | 72 => ⟨S_, .i32⟩
  | 73 => ⟨S256x21x1, .i32⟩
  | 74 => ⟨S256x21x1, .i1⟩
  | 75 => ⟨S256x21x1, .i1⟩
  | 76 => ⟨S_, .i32⟩
  | 77 => ⟨S256x1x21, .i32⟩
  | 78 => ⟨S256x1x21, .i1⟩
  | 79 => ⟨S256x21x21, .i1⟩
  | 80 => ⟨S256x21x21, .i1⟩
  | 81 => ⟨S256x21x21, .i1⟩
  | 82 => ⟨S_, .i32⟩
  | 83 => ⟨S256x1x21, .i32⟩
  | 84 => ⟨S256x1x21, .i1⟩
  | 85 => ⟨S256x21x21, .i1⟩
  | 86 => ⟨S256x21x21, .i1⟩
  | 87 => ⟨S256x21x21, .i1⟩
  | 88 => ⟨S_, .f32⟩
  | 89 => ⟨S256x21x21, .f32⟩
  | 90 => ⟨S256x21x21, .f32⟩
  | 91 => ⟨S_, .i32⟩
  | 92 => ⟨S_, .i32⟩
  | 93 => ⟨S_, .i32⟩
  | 94 => ⟨S256x21x1, .i32⟩
  | 95 => ⟨S256x21x1, .i32⟩
  | 96 => ⟨S_, .i32⟩
  | 97 => ⟨S256x21x1, .i32⟩
  | 98 => ⟨S256x21x1, .i32⟩
  | 99 => ⟨S_, .i32⟩
  | 100 => ⟨S256x21x1, .i32⟩
  | 101 => ⟨S256x21x1, .i32⟩
  | 102 => ⟨S_, .i32⟩
  | 103 => ⟨S_, .i32⟩
  | 104 => ⟨S_, .i32⟩
  | 105 => ⟨S256x1x21, .i32⟩
  | 106 => ⟨S256x1x21, .i32⟩
  | 107 => ⟨S_, .i32⟩
  | 108 => ⟨S256x1x21, .i32⟩
  | 109 => ⟨S256x1x21, .i32⟩
  | 110 => ⟨S256x21x21, .i32⟩
  | 111 => ⟨S256x21x21, .i32⟩
  | 112 => ⟨S256x21x21, .i32⟩
  | 113 => ⟨S112896, .i32⟩
  | 114 => ⟨S16777216, .f32⟩
  | 115 => ⟨S112896, .f32⟩
  | 116 => ⟨S_, .i32⟩
  | 117 => ⟨S112896, .i32⟩
  | 118 => ⟨S112896, .i1⟩
  | 119 => ⟨S_, .i32⟩
  | 120 => ⟨S112896, .i32⟩
  | 121 => ⟨S112896, .i32⟩
  | 122 => ⟨S112896, .i32⟩
  | 123 => ⟨S112896x1, .i32⟩
  | 124 => ⟨S16777216, .f32⟩
  | 125 => ⟨S4096x4096, .f32⟩
  | 126 => ⟨S4096x4096, .f32⟩
  | 127 => ⟨S4096x4096, .f32⟩
  | _ => ⟨S4096x4096, .f32⟩

abbrev hbmTy0_1 (i : Nat) : BufTy := match i % 128 with
  | 0 => ⟨S_, .f32⟩
  | 1 => ⟨S4096x4096, .f32⟩
  | 2 => ⟨S4096x4096, .f32⟩
  | 3 => ⟨S_, .f32⟩
  | 4 => ⟨S4096x4096, .f32⟩
  | 5 => ⟨S4096x4096, .f32⟩
  | 6 => ⟨S_, .f32⟩
  | 7 => ⟨S_, .f32⟩
  | 8 => ⟨S_, .f32⟩
  | 9 => ⟨S4096x4096, .f32⟩
  | 10 => ⟨S4096x4096, .f32⟩
  | 11 => ⟨S_, .f32⟩
  | 12 => ⟨S4096x4096, .f32⟩
  | 13 => ⟨S4096x4096, .f32⟩
  | 14 => ⟨S4096x4096, .f32⟩
  | 15 => ⟨S4096x4096, .f32⟩
  | 16 => ⟨S_, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S_, .f32⟩
  | 24 => ⟨S_, .f32⟩
  | 25 => ⟨S_, .f32⟩
  | 26 => ⟨S_, .f32⟩
  | 27 => ⟨S_, .i1⟩
  | 28 => ⟨S4096x4096, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096x4096, .f32⟩
  | 36 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_c_2 : Ref sig .tc := ⟨.hbm, 69, rfl⟩
abbrev main_v58 : Ref sig .tc := ⟨.hbm, 70, rfl⟩
abbrev main_v59 : Ref sig .tc := ⟨.hbm, 71, rfl⟩
abbrev main_c_3 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_c_4 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_c_5 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_6 : Ref sig .tc := ⟨.hbm, 88, rfl⟩
abbrev main_call0_v0 : Ref sig .tc := ⟨.hbm, 89, rfl⟩
abbrev main_v73 : Ref sig .tc := ⟨.hbm, 90, rfl⟩
abbrev main_c_7 : Ref sig .tc := ⟨.hbm, 91, rfl⟩
abbrev main_c_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v74 : Ref sig .tc := ⟨.hbm, 98, rfl⟩
abbrev main_c_9 : Ref sig .tc := ⟨.hbm, 99, rfl⟩
abbrev main_v75 : Ref sig .tc := ⟨.hbm, 100, rfl⟩
abbrev main_v76 : Ref sig .tc := ⟨.hbm, 101, rfl⟩
abbrev main_c_10 : Ref sig .tc := ⟨.hbm, 102, rfl⟩
abbrev main_c_11 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_12 : Ref sig .tc := ⟨.hbm, 116, rfl⟩
abbrev main_v84 : Ref sig .tc := ⟨.hbm, 117, rfl⟩
abbrev main_v85 : Ref sig .tc := ⟨.hbm, 118, rfl⟩
abbrev main_c_13 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_14 : Ref sig .tc := ⟨.hbm, 128, rfl⟩
abbrev main_v94 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_cst_16 : Ref sig .tc := ⟨.hbm, 134, rfl⟩
abbrev main_cst_17 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call4_v0 : Ref sig .tc := ⟨.hbm, 150, rfl⟩
abbrev main_call4_cst : Ref sig .tc := ⟨.hbm, 151, rfl⟩
abbrev main_call4_v1 : Ref sig .tc := ⟨.hbm, 152, rfl⟩
abbrev main_v106 : Ref sig .tc := ⟨.hbm, 153, rfl⟩
abbrev main_cst_19 : Ref sig .tc := ⟨.hbm, 154, rfl⟩
abbrev main_v107 : Ref sig .tc := ⟨.hbm, 155, rfl⟩
abbrev main_call5_v0 : Ref sig .tc := ⟨.hbm, 156, rfl⟩
abbrev main_call5_cst : Ref sig .tc := ⟨.hbm, 157, rfl⟩
abbrev main_call5_v1 : Ref sig .tc := ⟨.hbm, 158, rfl⟩
abbrev main_v108 : Ref sig .tc := ⟨.hbm, 159, rfl⟩
abbrev main_v109 : Ref sig .tc := ⟨.hbm, 160, rfl⟩
abbrev main_cst_20 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩

abbrev nD : Nat := 1
abbrev τ : Topo := Topo.v7x

variable {F : FTy → Type} [FloatOps F]

class Facts₀ : Prop where
  bcast_S_S21 : S_.BroadcastsInDim S21 (![] : Fin 0 → Fin S21.rank)
  bcast_S21_S21x1_0 : S21.BroadcastsInDim S21x1 (![0] : Fin 1 → Fin S21x1.rank)
  bcast_S21_S1x21_1 : S21.BroadcastsInDim S1x21 (![1] : Fin 1 → Fin S1x21.rank)
  bcast_S21x1_S21x21_0_1 : S21x1.BroadcastsInDim S21x21 (![0, 1] : Fin 2 → Fin S21x21.rank)
  bcast_S1x21_S21x21_0_1 : S1x21.BroadcastsInDim S21x21 (![0, 1] : Fin 2 → Fin S21x21.rank)
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S21x21_S1x21x21_1_2 : S21x21.BroadcastsInDim S1x21x21 (![1, 2] : Fin 2 → Fin S1x21x21.rank)
  bcast_S_S1x21x21 : S_.BroadcastsInDim S1x21x21 (![] : Fin 0 → Fin S1x21x21.rank)
  bcast_S1x21x21_S256x21x21_0_1_2 : S1x21x21.BroadcastsInDim S256x21x21 (![0, 1, 2] : Fin 3 → Fin S256x21x21.rank)
  bcast_S256x1x1_S256x21x21_0_1_2 : S256x1x1.BroadcastsInDim S256x21x21 (![0, 1, 2] : Fin 3 → Fin S256x21x21.rank)
  bcast_S_S256x21x21 : S_.BroadcastsInDim S256x21x21 (![] : Fin 0 → Fin S256x21x21.rank)
  bcast_S21x1_S1x21x1_1_2 : S21x1.BroadcastsInDim S1x21x1 (![1, 2] : Fin 2 → Fin S1x21x1.rank)
  bcast_S1x21x1_S256x21x1_0_1_2 : S1x21x1.BroadcastsInDim S256x21x1 (![0, 1, 2] : Fin 3 → Fin S256x21x1.rank)
  bcast_S256x1x1_S256x21x1_0_1_2 : S256x1x1.BroadcastsInDim S256x21x1 (![0, 1, 2] : Fin 3 → Fin S256x21x1.rank)
  bcast_S1x21_S1x1x21_1_2 : S1x21.BroadcastsInDim S1x1x21 (![1, 2] : Fin 2 → Fin S1x1x21.rank)
  bcast_S1x1x21_S256x1x21_0_1_2 : S1x1x21.BroadcastsInDim S256x1x21 (![0, 1, 2] : Fin 3 → Fin S256x1x21.rank)
  bcast_S256x1x1_S256x1x21_0_1_2 : S256x1x1.BroadcastsInDim S256x1x21 (![0, 1, 2] : Fin 3 → Fin S256x1x21.rank)
  bcast_S256x21x1_S256x21x21_0_1_2 : S256x21x1.BroadcastsInDim S256x21x21 (![0, 1, 2] : Fin 3 → Fin S256x21x21.rank)
  bcast_S256x1x21_S256x21x21_0_1_2 : S256x1x21.BroadcastsInDim S256x21x21 (![0, 1, 2] : Fin 3 → Fin S256x21x21.rank)
  slices_S256x2_S256x1_0_0 : S256x2.Slices ![0, 0] S256x1
  shapeCasts_S256x1_S256 : S256x1.ShapeCasts S256
  slices_S256x2_S256x1_0_1 : S256x2.Slices ![0, 1] S256x1
  bcast_S_S256x21x1 : S_.BroadcastsInDim S256x21x1 (![] : Fin 0 → Fin S256x21x1.rank)
  bcast_S_S256x1x21 : S_.BroadcastsInDim S256x1x21 (![] : Fin 0 → Fin S256x1x21.rank)
  shapeCasts_S256x21x21_S112896 : S256x21x21.ShapeCasts S112896
  bcast_S_S16777216 : S_.BroadcastsInDim S16777216 (![] : Fin 0 → Fin S16777216.rank)
  bcast_S_S112896 : S_.BroadcastsInDim S112896 (![] : Fin 0 → Fin S112896.rank)
  bcast_S112896_S112896x1_0 : S112896.BroadcastsInDim S112896x1 (![0] : Fin 1 → Fin S112896x1.rank)
  shapeCasts_S16777216_S4096x4096 : S16777216.ShapeCasts S4096x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  scatter_S16777216_S112896x1_S112896_n_0_0_1_wf : ScatterDims.WF S16777216 S112896x1 S112896 [] [0] [0] 1

variable [Facts₀]

def scatter_S16777216_S112896x1_S112896_n_0_0_1 : ScatterDims S16777216 S112896x1 S112896 where
  updateWindowDims := []
  insertedWindowDims := [0]
  scatterDimsToOperandDims := [0]
  indexVectorDim := 1
  wf := scatter_S16777216_S112896x1_S112896_n_0_0_1_wf

class Facts : Prop extends Facts₀ where

variable [Facts]
-- ==== Proof.Blend.lean ====
/-
  The mathematics both programs compute, stated once over the extended reals with no program in sight.

  Given the field `f`, the signal `s`, an influence map `P` (all 4096 × 4096) and a strength `a`:
    weight  w i = min 1 (max 0 (σ (P i))) · a          (σ the logistic function 1 / (1 + e^(-x)))
    update  u i = f i · (1 − w i) + s i · w i
    scale     κ = ‖f‖ / ‖u‖ if ‖u‖ > 0, else 1        (‖x‖ = √(Σ x i²), the sum over all entries)
    result  r i = u i · κ
  The only law used between the two programs is that a sum of extended reals may be regrouped: the sum over
  all 4096 rows is the sum over 2 halves of the sum over 16 tiles of the sum over a tile's 128 rows. Addition of
  extended reals is commutative and associative, so this needs no finiteness.
-/
import Idealize.ShloMosaic.PureOps.Ideal
import Idealize.ShloMosaic.PureOps.Ideal.Laws
import Idealize.ShloMosaic.Lib.ValueIdx

noncomputable section

open scoped BigOperators

namespace Cert.Blend

open Idealize.ShloMosaic Idealize.ShloMosaic.ValueIdx

/-- The shape of the field, the signal and the influence map. -/
abbrev Sq : Shape := ⟨2, ![4096, 4096]⟩

/-- A 4096 × 4096 array of extended reals. -/
abbrev Arr : Type := FVec Ideal Sq .f32

/-- The word of `1.0` denotes the real number 1. -/
theorem ofBits_one : Ideal.ofBits .f32 0x3F800000#32 = 1 := by
  simp [Ideal.ofBits, Ideal.ieee, -EReal.coe_mul]; norm_num

/-- The blend weight at an entry: the logistic of the influence there, clipped into [0, 1], times the strength. -/
def weight (P : Arr) (a : EReal) : Arr := fun i => min 1 (max 0 (Ideal.logistic (P i))) * a

/-- The updated field at an entry: `f · (1 − w) + s · w`. -/
def upd (f s P : Arr) (a : EReal) : Arr := fun i => f i * (1 - weight P a i) + s i * weight P a i

/-- The sum of the squares of one row's entries. -/
def rowSq (x : Arr) (r : Fin 4096) : EReal := ∑ l : Fin 4096, x (ix2 r l) * x (ix2 r l)

/-- The sum of the squares of all entries, row by row. -/
def sumsq (x : Arr) : EReal := ∑ r : Fin 4096, rowSq x r

/-- The sum of squares is the sum over all indices at once. -/
theorem sumsq_eq_sum_idx (x : Arr) : sumsq x = ∑ i : Sq.Idx, x i * x i := by
  unfold sumsq rowSq
  exact (sum_idx2 (fun i : Sq.Idx => x i * x i)).symm

/-- The rescaling factor: the ratio of the norms when the updated field's norm is positive, else 1. -/
def scale (f u : Arr) : EReal :=
  Scalar.select (Ideal.cmp .ogt (Ideal.sqrt (sumsq u)) 0) (Ideal.div (Ideal.sqrt (sumsq f)) (Ideal.sqrt (sumsq u))) 1

/-- The result: the updated field, rescaled. -/
def result (f s P : Arr) (a : EReal) : Arr := fun i => upd f s P a i * scale f (upd f s P a)

/-! ## Regrouping the rows -/

/-- A row's sum of squares by its number, zero past the last row. -/
def rowSqN (x : Arr) (n : ℕ) : EReal := if h : n < 4096 then rowSq x ⟨n, h⟩ else 0

theorem rowSqN_of_lt (x : Arr) {n : ℕ} (h : n < 4096) : rowSqN x n = rowSq x ⟨n, h⟩ := dif_pos h

/-- The sum of squares of tile `t`'s 128 rows (rows `128 t` to `128 t + 127`). -/
def tileSq (x : Arr) (t : ℕ) : EReal := ∑ r ∈ Finset.range 128, rowSqN x (t * 128 + r)

/-- The sum of squares of the 16 tiles of half `c` (tiles `16 c` to `16 c + 15`). -/
def halfSq (x : Arr) (c : ℕ) : EReal := ∑ i ∈ Finset.range 16, tileSq x (c * 16 + i)

/-- A sum over `a · b` consecutive numbers is the sum over `a` groups of `b`. -/
theorem sum_range_mul {M : Type*} [AddCommMonoid M] (g : ℕ → M) (a b : ℕ) :
    ∑ n ∈ Finset.range (a * b), g n = ∑ p ∈ Finset.range a, ∑ q ∈ Finset.range b, g (p * b + q) := by
  induction a with
  | zero => simp
  | succ a ih => rw [Nat.succ_mul, Finset.sum_range_add, ih, Finset.sum_range_succ]

/-- The sum of squares as a sum over the row numbers 0 … 4095. -/
theorem sumsq_eq_range (x : Arr) : sumsq x = ∑ n ∈ Finset.range 4096, rowSqN x n := by
  unfold sumsq
  rw [← Fin.sum_univ_eq_sum_range (fun n => rowSqN x n) 4096]
  exact Finset.sum_congr rfl fun r _ => (rowSqN_of_lt x r.isLt).symm

/-- 4096 consecutive numbers are 2 halves of 16 tiles of 128. -/
theorem sum_range_4096 {M : Type*} [AddCommMonoid M] (g : ℕ → M) :
    ∑ n ∈ Finset.range 4096, g n
      = ∑ c ∈ Finset.range 2, ∑ i ∈ Finset.range 16, ∑ r ∈ Finset.range 128, g ((c * 16 + i) * 128 + r) := by
  have e : (4096 : ℕ) = 2 * (16 * 128) := by norm_num
  rw [e, sum_range_mul]
  refine Finset.sum_congr rfl fun c _ => ?_
  rw [sum_range_mul]
  refine Finset.sum_congr rfl fun i _ => Finset.sum_congr rfl fun r _ => ?_
  exact congrArg g (by ring)

/-- All rows, regrouped: the two halves' sums of squares add up to the whole. -/
theorem sumsq_eq_halves (x : Arr) : sumsq x = halfSq x 0 + halfSq x 1 := by
  rw [sumsq_eq_range, sum_range_4096, Finset.sum_range_succ, Finset.sum_range_one]
  rfl

end Cert.Blend

end
-- ==== Proof.RefSide.lean ====
import proofs.«123638_j56650618634582_2_alg».proof.Defs
import proofs.«123638_j56650618634582_2_alg».proof.Proof.Gen.ReferenceIdeal.Run
import proofs.«123638_j56650618634582_2_alg».proof.Proof.Gen.ReferenceIdeal.Read
import proofs.«123638_j56650618634582_2_alg».proof.Proof.Blend
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- At the extended reals the comparison of two floats is the order's comparison. -/
theorem cmpf_eq (p : CmpFPredicate) (x y : Ideal .f32) : FloatOps.cmpf (F := Ideal) p x y = Ideal.cmp p x y := rfl

/-- The weight stage is the clipped logistic of the influence map times the strength: the reference spells
    the logistic as 1 / (1 + e^(-p)), which is the logistic function's definition, and its constants are the
    words of 1 and 0. -/
theorem weight_eq (x2 : (⟨S256x2, .i32⟩ : BufTy).Contents (Elt Ideal)) (x3 : (⟨S256, .f32⟩ : BufTy).Contents (Elt Ideal))
    (x4 x5 x6 : (⟨S_, .f32⟩ : BufTy).Contents (Elt Ideal)) :
    Read.val_main_v100 (F := Ideal) x2 x3 x4 x5 x6
      = Cert.Blend.weight (Read.val_main_v91 (F := Ideal) x2 x3 x5 x6) (x4 ix0) := by
  funext i
  rw [Read.val_main_v100_apply, Read.val_main_v98_apply, Read.val_main_call3_v4_apply, Read.val_main_call3_v3_apply,
    Read.val_main_cst_17_apply, Read.val_main_call3_v2_apply, Read.val_main_call3_v1_apply, Read.val_main_call3_v0_apply,
    Read.val_main_cst_16_apply, Read.val_main_v97_apply, Read.val_main_v96_apply, Read.val_main_cst_15_apply,
    Read.val_main_v95_apply, Read.val_main_v94_apply, Read.val_main_cst_14_apply, Read.val_main_v93_apply,
    Read.val_main_v92_apply, Read.val_main_v99_apply]
  generalize Read.val_main_v91 (F := Ideal) x2 x3 x5 x6 = P
  simp only [Ideal.mulf_def, Ideal.minimumf_def, Ideal.maximumf_def, Ideal.hostDivf_def, Ideal.addf_def,
    Ideal.hostUnary_exp_def, Ideal.hostNegf_def, Ideal.negf_def, Ideal.ofBits_def, Cert.Blend.ofBits_one,
    Ideal.ofBits_zero_f32]
  rfl

/-- The update stage is f · (1 − w) + s · w with w the weight. -/
theorem upd_eq (x0 x1 : (⟨S4096x4096, .f32⟩ : BufTy).Contents (Elt Ideal)) (x2 : (⟨S256x2, .i32⟩ : BufTy).Contents (Elt Ideal))
    (x3 : (⟨S256, .f32⟩ : BufTy).Contents (Elt Ideal)) (x4 x5 x6 : (⟨S_, .f32⟩ : BufTy).Contents (Elt Ideal)) :
    Read.val_main_v105 (F := Ideal) x0 x1 x2 x3 x4 x5 x6
      = Cert.Blend.upd x0 x1 (Read.val_main_v91 (F := Ideal) x2 x3 x5 x6) (x4 ix0) := by
  funext i
  rw [Read.val_main_v105_apply, Read.val_main_v103_apply, Read.val_main_v104_apply, Read.val_main_v102_apply,
    Read.val_main_v101_apply, Read.val_main_cst_18_apply, weight_eq]
  generalize Read.val_main_v91 (F := Ideal) x2 x3 x5 x6 = P
  simp only [Ideal.mulf_def, Ideal.addf_def, Ideal.subf_def, Ideal.ofBits_def, Cert.Blend.ofBits_one]
  rfl

/-- A float sum from the word of 0 over the entrywise squares of an array is the array's sum of squares. -/
theorem zero_add_sum_sq (y : Cert.Blend.Arr) :
    Ideal.ofBits .f32 0x00000000#32 + ∑ j : Cert.Blend.Sq.Idx, y j * y j = Cert.Blend.sumsq y := by
  rw [Ideal.ofBits_zero_f32, zero_add, Cert.Blend.sumsq_eq_sum_idx]

/-- The norm of the updated field: the square root of its sum of squares. -/
theorem norm_upd_eq (x0 x1 : (⟨S4096x4096, .f32⟩ : BufTy).Contents (Elt Ideal)) (x2 : (⟨S256x2, .i32⟩ : BufTy).Contents (Elt Ideal))
    (x3 : (⟨S256, .f32⟩ : BufTy).Contents (Elt Ideal)) (x4 x5 x6 : (⟨S_, .f32⟩ : BufTy).Contents (Elt Ideal)) (i : S_.Idx) :
    Read.val_main_v106 (F := Ideal) x0 x1 x2 x3 x4 x5 x6 i
      = Ideal.sqrt (Cert.Blend.sumsq (Cert.Blend.upd x0 x1 (Read.val_main_v91 (F := Ideal) x2 x3 x5 x6) (x4 ix0))) := by
  rw [Read.val_main_v106_apply, Ideal.hostUnary_sqrt_def, Read.val_main_call4_v1_apply, Read.val_main_call4_cst_apply,
    Ideal.ofBits_def]
  refine congrArg Ideal.sqrt ?_
  rw [← zero_add_sum_sq]
  refine congrArg (fun t => Ideal.ofBits .f32 0x00000000#32 + t) ?_
  refine Finset.sum_congr rfl fun j _ => ?_
  rw [Read.val_main_call4_v0_apply, Ideal.mulf_def, upd_eq]

/-- The norm of the field: the square root of its sum of squares. -/
theorem norm_f_eq (x0 : (⟨S4096x4096, .f32⟩ : BufTy).Contents (Elt Ideal)) (i : S_.Idx) :
    Read.val_main_v108 (F := Ideal) x0 i = Ideal.sqrt (Cert.Blend.sumsq x0) := by
  rw [Read.val_main_v108_apply, Ideal.hostUnary_sqrt_def, Read.val_main_call5_v1_apply, Read.val_main_call5_cst_apply,
    Ideal.ofBits_def]
  refine congrArg Ideal.sqrt ?_
  rw [← zero_add_sum_sq]
  refine congrArg (fun t => Ideal.ofBits .f32 0x00000000#32 + t) ?_
  refine Finset.sum_congr rfl fun j _ => ?_
  rw [Read.val_main_call5_v0_apply, Ideal.mulf_def]

/-- The rescaling factor: the ratio of the two norms where the updated field's norm is positive, else 1. -/
theorem scale_eq (x0 x1 : (⟨S4096x4096, .f32⟩ : BufTy).Contents (Elt Ideal)) (x2 : (⟨S256x2, .i32⟩ : BufTy).Contents (Elt Ideal))
    (x3 : (⟨S256, .f32⟩ : BufTy).Contents (Elt Ideal)) (x4 x5 x6 : (⟨S_, .f32⟩ : BufTy).Contents (Elt Ideal)) (i : S_.Idx) :
    Read.val_main_v110 (F := Ideal) x0 x1 x2 x3 x4 x5 x6 i
      = Cert.Blend.scale x0 (Cert.Blend.upd x0 x1 (Read.val_main_v91 (F := Ideal) x2 x3 x5 x6) (x4 ix0)) := by
  rw [Read.val_main_v110_apply, Read.val_main_v107_apply, Read.val_main_v109_apply, Read.val_main_cst_19_apply,
    Read.val_main_cst_20_apply, norm_upd_eq, norm_f_eq, cmpf_eq, Ideal.hostDivf_def, Ideal.ofBits_def, Ideal.ofBits_def,
    Cert.Blend.ofBits_one, Ideal.ofBits_zero_f32]
  rfl

/-- The reference's result is the blend: the updated field times the rescaling factor, with the influence
    map the stage the shared prefix computes. -/
theorem ref_is_result (x0 x1 : (⟨S4096x4096, .f32⟩ : BufTy).Contents (Elt Ideal)) (x2 : (⟨S256x2, .i32⟩ : BufTy).Contents (Elt Ideal))
    (x3 : (⟨S256, .f32⟩ : BufTy).Contents (Elt Ideal)) (x4 x5 x6 : (⟨S_, .f32⟩ : BufTy).Contents (Elt Ideal)) :
    Read.val_main_v112 (F := Ideal) x0 x1 x2 x3 x4 x5 x6
      = Cert.Blend.result x0 x1 (Read.val_main_v91 (F := Ideal) x2 x3 x5 x6) (x4 ix0) := by
  funext i
  rw [Read.val_main_v112_apply, Read.val_main_v111_apply, scale_eq, upd_eq, Ideal.mulf_def]
  rfl

end Cert.ReferenceIdeal.RefValue

end
-- ==== Proof.RunValue.lean ====
/- The run of the idealized kernel program with its RESULT kept in the post.

   The program's frame statement says that every weakly fair execution of @main on the TensorCores terminates without
   a fault and leaves the seven argument arrays as launched. Here the same run is stated with one more fact about every
   final state: the result array `main_v102` holds the contents of the LAST segment boundary, `W12` — the fold of the
   host stretches' `StableHlo.after` and the two regions' write-backs from the launch memory. What those contents are
   is a separate, purely functional question (the regions' values and the host reads). -/
import proofs.«123638_j56650618634582_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of @main on the TensorCores
    terminates, nothing faulting, and every final state has, on every core, the result array `main_v102` at the last
    boundary's contents `W12` and the seven argument arrays as launched.

    The program is the run of its twelve segments; the thread state between two segments is "every unscoped buffer at
    that boundary's contents", so the last thread state holds every unscoped buffer at `W12`. Read against a final
    state it says that the memory agrees with `W12` at every unscoped reference: at `main_v102` that is the first
    conjunct as it stands, and at an argument it is the launch memory, no segment writing an argument. -/
theorem run_value : θ_run defs (onTc (τ := τ) (main (F := F))) ⟨m, fun _ => 0, ρ⟩ (fun r => ∀ c : Dev nD,
      r.2.mem ((c.tc : Thread nD τ).loc main_v102) = W12 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    -- @main is the run of the segments
    (fun c Q => by rw [main_run m ρ c])
    -- each of the two pipelines is entered once
    (by simp only [segs, Pipeline.Seg.pipes_host, Pipeline.Seg.pipes_region, Pipeline.Seg.pipes_nil]; decide)
    -- nothing is owed at launch, no level is assigned, no ghost resource rides beside a core
    (O₀ := 0) (hL := fun _ _ => rfl) (G := fun _ => iprop(emp))
    (u₀ := initOf (Pipeline.cells cfgs cellOf_inj) (Pipeline.launchToks cfgs cellOf_inj))
    -- the launch element is the pipelines' own; the per-core ghost resources are all `emp`
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- first thread state: every unscoped buffer at the launch contents; last: at `W12`
    (T₀ := fun c => iprop(StableHlo.held (c : Thread nD τ) (Pipeline.ucRefs τ sig) (W0 m ρ c) ∗ R c)) (Tₙ := Tₙ m ρ)
    -- each segment's post is the next one's pre, boundary by boundary
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    -- what the launch deals a core is its first thread state
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last thread state read against a final state: the memory is `W12` at every unscoped reference
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    -- the result array as read; each argument walked back through the fold to the launch memory
    (hQ := fun s h c =>
      ⟨h c _ (mem_uc main_v102 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunValue

end
-- ==== Proof.Pieces.lean ====
/-
  What each run of the first kernel's body leaves in its three outputs, as values of the tile's input blocks.

  At the first tile of a half (the reset case) the accumulators are set to zero and then replaced by zero plus the
  tile's partial sums; at every other tile they are replaced by their old value plus the partial sums. In both cases the
  update block is stored whole.
-/
import proofs.«123638_j56650618634582_2_alg».proof.Proof.Gen.KernelIdeal.Frame
import Idealize.ShloMosaic.Lib.Pipeline.Value
import Idealize.ShloMosaic.Lib.Tactic

noncomputable section

namespace Cert.KernelIdeal.Norms

open Cert.KernelIdeal Cert.KernelIdeal.Gen Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-! ## Every tile but a half's first: the accumulators carry over -/

theorem outB_4 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x1 .f32) (h5 : a5.IsWhole) (a6 : Memref sig .tc .vmem S128x4096 .f32) (h6 : a6.IsWhole) (a7 : Memref sig .tc .vmem S1x1x1 .f32) (h7 : a7.IsWhole) (a8 : Memref sig .tc .vmem S1x1x1 .f32) (h8 : a8.IsWhole) (hc : ¬cond0_0 i)
    (x0 : Vec F S128x4096 .f32) (x1 : Vec F S128x4096 .f32) (x2 : Vec F S128x4096 .f32) (x3 : Vec F S1x1 .f32) (xo5 xo6 : Vec F S1x1x1 .f32) :
    out0_B_4 c i a2 h2 a3 h3 a4 h4 a5 h5 a6 h6 a7 h7 a8 h8 hc x0 x1 x2 x3 xo5 xo6 = k0_pay5 x3 x0 x1 x2 := by
  unfold out0_B_4
  rw [View.read_writes_eq_canon _ _ _ (cover0_B_4 c i a2 h2 a3 h3 a4 h4 a5 h5 a6 h6 a7 h7 a8 h8 hc x0 x1 x2 x3 xo5 xo6)]
  unfold kernelRun0_B
  dsimp only
  sl_unfold_words
  rw [View.canon_unit_zero zero2]
  simp only [View.readAt_eq_ld, h2.read_unread, h3.read_unread, h4.read_unread, h5.read_unread, h7.read_unread, h8.read_unread, View.ld_unit_zero (S := S128x4096) zero2, View.ld_unit_zero (S := S1x1) zero2, View.ld_unit_zero (S := S1x1x1) zero3]

theorem outB_5 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x1 .f32) (h5 : a5.IsWhole) (a6 : Memref sig .tc .vmem S128x4096 .f32) (h6 : a6.IsWhole) (a7 : Memref sig .tc .vmem S1x1x1 .f32) (h7 : a7.IsWhole) (a8 : Memref sig .tc .vmem S1x1x1 .f32) (h8 : a8.IsWhole) (hc : ¬cond0_0 i)
    (x0 : Vec F S128x4096 .f32) (x1 : Vec F S128x4096 .f32) (x2 : Vec F S128x4096 .f32) (x3 : Vec F S1x1 .f32) (xo5 xo6 : Vec F S1x1x1 .f32) :
    out0_B_5 c i a2 h2 a3 h3 a4 h4 a5 h5 a6 h6 a7 h7 a8 h8 hc x0 x1 x2 x3 xo5 xo6 = k0_pay1 (k0_pay6 x0) (k0_pay8 xo5) := by
  unfold out0_B_5
  rw [View.read_writes_eq_canon _ _ _ (cover0_B_5 c i a2 h2 a3 h3 a4 h4 a5 h5 a6 h6 a7 h7 a8 h8 hc x0 x1 x2 x3 xo5 xo6)]
  unfold kernelRun0_B
  dsimp only
  sl_unfold_words
  rw [View.canon_unit_zero zero3]
  simp only [View.readAt_eq_ld, h2.read_unread, h3.read_unread, h4.read_unread, h5.read_unread, h7.read_unread, h8.read_unread, View.ld_unit_zero (S := S128x4096) zero2, View.ld_unit_zero (S := S1x1) zero2, View.ld_unit_zero (S := S1x1x1) zero3]

theorem outB_6 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x1 .f32) (h5 : a5.IsWhole) (a6 : Memref sig .tc .vmem S128x4096 .f32) (h6 : a6.IsWhole) (a7 : Memref sig .tc .vmem S1x1x1 .f32) (h7 : a7.IsWhole) (a8 : Memref sig .tc .vmem S1x1x1 .f32) (h8 : a8.IsWhole) (hc : ¬cond0_0 i)
    (x0 : Vec F S128x4096 .f32) (x1 : Vec F S128x4096 .f32) (x2 : Vec F S128x4096 .f32) (x3 : Vec F S1x1 .f32) (xo5 xo6 : Vec F S1x1x1 .f32) :
    out0_B_6 c i a2 h2 a3 h3 a4 h4 a5 h5 a6 h6 a7 h7 a8 h8 hc x0 x1 x2 x3 xo5 xo6 = k0_pay2 (k0_pay7 x3 x0 x1 x2) xo6 := by
  unfold out0_B_6
  rw [View.read_writes_eq_canon _ _ _ (cover0_B_6 c i a2 h2 a3 h3 a4 h4 a5 h5 a6 h6 a7 h7 a8 h8 hc x0 x1 x2 x3 xo5 xo6)]
  unfold kernelRun0_B
  dsimp only
  sl_unfold_words
  rw [View.canon_unit_zero zero3]
  simp only [View.readAt_eq_ld, h2.read_unread, h3.read_unread, h4.read_unread, h5.read_unread, h7.read_unread, h8.read_unread, View.ld_unit_zero (S := S128x4096) zero2, View.ld_unit_zero (S := S1x1) zero2, View.ld_unit_zero (S := S1x1x1) zero3]

/-! ## A half's first tile: the accumulators start from zero -/

theorem outA_4 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x1 .f32) (h5 : a5.IsWhole) (a6 : Memref sig .tc .vmem S128x4096 .f32) (h6 : a6.IsWhole) (a7 : Memref sig .tc .vmem S1x1x1 .f32) (h7 : a7.IsWhole) (a8 : Memref sig .tc .vmem S1x1x1 .f32) (h8 : a8.IsWhole) (hc : cond0_0 i)
    (x0 : Vec F S128x4096 .f32) (x1 : Vec F S128x4096 .f32) (x2 : Vec F S128x4096 .f32) (x3 : Vec F S1x1 .f32) :
    out0_A_4 c i a2 h2 a3 h3 a4 h4 a5 h5 a6 h6 a7 h7 a8 h8 hc x0 x1 x2 x3 = k0_pay5 x3 x0 x1 x2 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero zero2]
  simp only [View.readAt_eq_ld, h2.read_unread, h3.read_unread, h4.read_unread, h5.read_unread, View.ld_unit_zero (S := S128x4096) zero2, View.ld_unit_zero (S := S1x1) zero2]

theorem outA_5 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x1 .f32) (h5 : a5.IsWhole) (a6 : Memref sig .tc .vmem S128x4096 .f32) (h6 : a6.IsWhole) (a7 : Memref sig .tc .vmem S1x1x1 .f32) (h7 : a7.IsWhole) (a8 : Memref sig .tc .vmem S1x1x1 .f32) (h8 : a8.IsWhole) (hc : cond0_0 i)
    (x0 : Vec F S128x4096 .f32) (x1 : Vec F S128x4096 .f32) (x2 : Vec F S128x4096 .f32) (x3 : Vec F S1x1 .f32) :
    out0_A_5 c i a2 h2 a3 h3 a4 h4 a5 h5 a6 h6 a7 h7 a8 h8 hc x0 x1 x2 x3 = k0_pay1 (k0_pay6 x0) (k0_pay8 (k0_pay3 (F := F))) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S1x1x1) zero3, View.readCov_unit_zero (S := S1x1x1) _ zero3]
  simp only [View.readAt_eq_ld, h2.read_unread, h3.read_unread, h4.read_unread, h5.read_unread, View.ld_unit_zero (S := S128x4096) zero2, View.ld_unit_zero (S := S1x1) zero2]

theorem outA_6 (c : Dev nD) (i : grid0.Coords) (a2 : Memref sig .tc .vmem S128x4096 .f32) (h2 : a2.IsWhole) (a3 : Memref sig .tc .vmem S128x4096 .f32) (h3 : a3.IsWhole) (a4 : Memref sig .tc .vmem S128x4096 .f32) (h4 : a4.IsWhole) (a5 : Memref sig .tc .vmem S1x1 .f32) (h5 : a5.IsWhole) (a6 : Memref sig .tc .vmem S128x4096 .f32) (h6 : a6.IsWhole) (a7 : Memref sig .tc .vmem S1x1x1 .f32) (h7 : a7.IsWhole) (a8 : Memref sig .tc .vmem S1x1x1 .f32) (h8 : a8.IsWhole) (hc : cond0_0 i)
    (x0 : Vec F S128x4096 .f32) (x1 : Vec F S128x4096 .f32) (x2 : Vec F S128x4096 .f32) (x3 : Vec F S1x1 .f32) :
    out0_A_6 c i a2 h2 a3 h3 a4 h4 a5 h5 a6 h6 a7 h7 a8 h8 hc x0 x1 x2 x3 = k0_pay2 (k0_pay7 x3 x0 x1 x2) (k0_pay4 (F := F)) := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S1x1x1) zero3, View.readCov_unit_zero (S := S1x1x1) _ zero3]
  simp only [View.readAt_eq_ld, h2.read_unread, h3.read_unread, h4.read_unread, h5.read_unread, View.ld_unit_zero (S := S128x4096) zero2, View.ld_unit_zero (S := S1x1) zero2]

end Cert.KernelIdeal.Norms

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Payloads.lean ====
/-
  What the first kernel's body computes on one tile (128 rows of 4096), read entry by entry over the extended reals.

  On a tile with field block `f`, signal block `s`, influence block `p` and strength `a`:
    the stored update is      f y · (1 − w y) + s y · w y   with  w y = min 1 (max 0 (σ (p y))) · a;
    the two partial sums are  Σ over the tile's rows of Σ over the row's entries of x y², for x = f and x = the update
  (a sum along the lanes kept as a column, then a sum down the column);
    each accumulator is replaced by its old value plus the tile's partial sum.
-/
import proofs.«123638_j56650618634582_2_alg».proof.Proof.Gen.KernelIdeal.Skeleton
import proofs.«123638_j56650618634582_2_alg».proof.Proof.Blend
import proofs.«123638_j56650618634582_2_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Norms

open Cert.KernelIdeal Cert.KernelIdeal.Gen Idealize.ShloMosaic Idealize.ShloMosaic.TcCoe Idealize.ShloMosaic.ValueIdx

/-- The blend weight on a tile. -/
def tileWeight (p : S128x4096.Idx → EReal) (a : EReal) : S128x4096.Idx → EReal :=
  fun y => min 1 (max 0 (Ideal.logistic (p y))) * a

/-- The update on a tile. -/
def tileUpd (f s p : S128x4096.Idx → EReal) (a : EReal) : S128x4096.Idx → EReal :=
  fun y => f y * (1 - tileWeight p a y) + s y * tileWeight p a y

/-- The sum of the squares of a tile's entries, row by row. -/
def tileSum (x : S128x4096.Idx → EReal) : EReal := ∑ r : Fin 128, ∑ l : Fin 4096, x (ix2 r l) * x (ix2 r l)

/-- The stored update, at an entry of the tile. -/
theorem pay5_apply (v3 : Vec Ideal S1x1 .f32) (v5 v6 v7 : Vec Ideal S128x4096 .f32) (r : Fin 128) (l : Fin 4096) :
    k0_pay5 v3 v5 v6 v7 (ix2 r l) = tileUpd v5 v6 v7 (v3 (ix2 (0 : Fin 1) (0 : Fin 1))) (ix2 r l) := by
  have hb : broadcastTo S128x4096 (shapeCast S1x1 v3 shapeCasts_S1x1_S1x1) broadcasts_S1x1_S128x4096 (ix2 r l)
      = v3 (ix2 (0 : Fin 1) (0 : Fin 1)) := by
    rw [shapeCast_self]
    exact broadcastTo_apply v3 _ (ix2 r l) (ix2 (0 : Fin 1) (0 : Fin 1)) (fun a => by
      match a with
      | ⟨0, _⟩ => rfl
      | ⟨1, _⟩ => rfl)
  unfold k0_pay5 tileUpd tileWeight
  show v5 (ix2 r l) * (Ideal.ofBits .f32 0x3F800000#32
        - min (Ideal.ofBits .f32 0x3F800000#32) (max (Ideal.ofBits .f32 0x00000000#32)
            (Ideal.logistic (shapeCast S128x4096 v7 shapeCasts_S128x4096_S128x4096 (ix2 r l))))
          * broadcastTo S128x4096 (shapeCast S1x1 v3 shapeCasts_S1x1_S1x1) broadcasts_S1x1_S128x4096 (ix2 r l))
      + v6 (ix2 r l) * (min (Ideal.ofBits .f32 0x3F800000#32) (max (Ideal.ofBits .f32 0x00000000#32)
            (Ideal.logistic (shapeCast S128x4096 v7 shapeCasts_S128x4096_S128x4096 (ix2 r l))))
          * broadcastTo S128x4096 (shapeCast S1x1 v3 shapeCasts_S1x1_S1x1) broadcasts_S1x1_S128x4096 (ix2 r l)) = _
  rw [hb, shapeCast_self, Cert.Blend.ofBits_one, Ideal.ofBits_zero_f32]

/-- A sum along the lanes kept as a column, then a sum down the column, of the squares: the tile's sum of squares. -/
theorem lanes_then_rows (x : FVec Ideal S128x4096 .f32) :
    shapeCast S1x1 (multiReduction (F := Ideal) .add [0] S1
        (shapeCast S128x1 (multiReduction (F := Ideal) .add [1] S128 (mulf x x) 0x00000000#32 reduces_S128x4096_S128 (.inl rfl) rfl)
          shapeCasts_S128_S128x1) 0x00000000#32 reduces_S128x1_S1 (.inl rfl) rfl) shapeCasts_S1_S1x1
        (ix2 (0 : Fin 1) (0 : Fin 1)) = tileSum x := by
  rw [Cert.Lib.Column.shapeCast_a_a1_apply]
  refine (Ideal.multiReduction_add_single _ 0x00000000#32 reduces_S128x1_S1 (.inl rfl) rfl (ix1 (0 : Fin 1))).trans ?_
  unfold tileSum
  show ∑ r : Fin 128, shapeCast S128x1 _ shapeCasts_S128_S128x1 (reduces_S128x1_S1.lift (ix1 (0 : Fin 1)) r) = _
  refine Finset.sum_congr rfl fun (r : Fin 128) _ => ?_
  have e : reduces_S128x1_S1.lift (ix1 (0 : Fin 1)) r = ix2 r (0 : Fin 1) := funext fun a => Fin.ext (by
    match a with
    | ⟨0, _⟩ => rfl
    | ⟨1, _⟩ => rfl)
  rw [e, Cert.Lib.Column.shapeCast_a_a1_apply]
  refine (Ideal.multiReduction_add_single _ 0x00000000#32 reduces_S128x4096_S128 (.inl rfl) rfl (ix1 r)).trans ?_
  show ∑ l : Fin 4096, mulf x x (reduces_S128x4096_S128.lift (ix1 r) l) = _
  refine Finset.sum_congr rfl fun (l : Fin 4096) _ => ?_
  have e2 : reduces_S128x4096_S128.lift (ix1 r) l = ix2 r l := funext fun a => Fin.ext (by
    match a with
    | ⟨0, _⟩ => rfl
    | ⟨1, _⟩ => rfl)
  rw [e2]
  rfl

/-- The field's partial sum on a tile. -/
theorem pay6_apply (v5 : Vec Ideal S128x4096 .f32) : k0_pay6 v5 (ix2 (0 : Fin 1) (0 : Fin 1)) = tileSum v5 := by
  unfold k0_pay6
  exact lanes_then_rows v5

/-- The update's partial sum on a tile. -/
theorem pay7_apply (v3 : Vec Ideal S1x1 .f32) (v5 v6 v7 : Vec Ideal S128x4096 .f32) :
    k0_pay7 v3 v5 v6 v7 (ix2 (0 : Fin 1) (0 : Fin 1)) = tileSum (tileUpd v5 v6 v7 (v3 (ix2 (0 : Fin 1) (0 : Fin 1)))) := by
  unfold k0_pay7
  refine (lanes_then_rows (k0_pay5 v3 v5 v6 v7)).trans ?_
  unfold tileSum
  refine Finset.sum_congr rfl fun r _ => Finset.sum_congr rfl fun l _ => ?_
  rw [pay5_apply]

/-- All indices of a one-entry block are the same. -/
theorem idx111 (y : S1x1x1.Idx) : y = ix3 (0 : Fin 1) (0 : Fin 1) (0 : Fin 1) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-- A 1-by-1 block recast as 1-by-1-by-1 keeps its entry. -/
theorem cast11_111 (x : S1x1.Idx → EReal) : shapeCast S1x1x1 x shapeCasts_S1x1_S1x1x1 (ix3 (0 : Fin 1) (0 : Fin 1) (0 : Fin 1)) = x (ix2 (0 : Fin 1) (0 : Fin 1)) :=
  shapeCast_apply x _ _ _ (by rw [Shape.rowMajor_val_two, Shape.rowMajor_val_three]; rfl)

/-- A 1-by-1-by-1 block recast as 1-by-1 keeps its entry. -/
theorem cast111_11 (x : S1x1x1.Idx → EReal) : shapeCast S1x1 x shapeCasts_S1x1x1_S1x1 (ix2 (0 : Fin 1) (0 : Fin 1)) = x (ix3 (0 : Fin 1) (0 : Fin 1) (0 : Fin 1)) :=
  shapeCast_apply x _ _ _ (by rw [Shape.rowMajor_val_two, Shape.rowMajor_val_three]; rfl)

/-- The first accumulator's new value: old plus the tile's partial sum. -/
theorem pay1_apply (v26 v33 : FVec Ideal S1x1 .f32) :
    k0_pay1 v26 v33 (ix3 (0 : Fin 1) (0 : Fin 1) (0 : Fin 1)) = v33 (ix2 (0 : Fin 1) (0 : Fin 1)) + v26 (ix2 (0 : Fin 1) (0 : Fin 1)) := by
  unfold k0_pay1
  exact cast11_111 _

/-- The second accumulator's new value: old plus the tile's partial sum. -/
theorem pay2_apply (v31 : FVec Ideal S1x1 .f32) (v38 : Vec Ideal S1x1x1 .f32) :
    k0_pay2 v31 v38 (ix3 (0 : Fin 1) (0 : Fin 1) (0 : Fin 1)) = v38 (ix3 (0 : Fin 1) (0 : Fin 1) (0 : Fin 1)) + v31 (ix2 (0 : Fin 1) (0 : Fin 1)) := by
  unfold k0_pay2
  refine (cast11_111 _).trans ?_
  show shapeCast S1x1 v38 shapeCasts_S1x1x1_S1x1 (ix2 (0 : Fin 1) (0 : Fin 1)) + _ = _
  rw [cast111_11]

/-- The accumulator read back as a 1-by-1 block. -/
theorem pay8_apply (v32 : Vec Ideal S1x1x1 .f32) :
    k0_pay8 v32 (ix2 (0 : Fin 1) (0 : Fin 1)) = v32 (ix3 (0 : Fin 1) (0 : Fin 1) (0 : Fin 1)) := by
  unfold k0_pay8
  exact cast111_11 _

/-- The reset stores zero in the first accumulator. -/
theorem pay3_apply : k0_pay3 (F := Ideal) (ix3 (0 : Fin 1) (0 : Fin 1) (0 : Fin 1)) = 0 := by
  unfold k0_pay3
  refine (cast11_111 _).trans ?_
  exact Ideal.ofBits_zero_f32

/-- The reset stores zero in the second accumulator. -/
theorem pay4_apply : k0_pay4 (F := Ideal) (ix3 (0 : Fin 1) (0 : Fin 1) (0 : Fin 1)) = 0 := by
  unfold k0_pay4
  refine (cast11_111 _).trans ?_
  exact Ideal.ofBits_zero_f32

end Cert.KernelIdeal.Norms

end
-- ==== Proof.Accum.lean ====
/-
  The first kernel over its 32 tiles: what the three outputs hold after each tile.

  Tile `t` reads rows `128 t` to `128 t + 127` of the field `f`, the signal `s` and the influence map `P`, and the one
  entry `a` of the strength. It stores the update of those rows, and adds the rows' sums of squares of `f` and of the
  update into two accumulators that restart from zero at tiles 0 and 16. So after tile `t` each accumulator holds the sum
  over the tiles of `t`'s half up to `t` — by induction on the tile, never by listing the tiles.
-/
import proofs.«123638_j56650618634582_2_alg».proof.Proof.Gen.KernelIdeal.Frame
import proofs.«123638_j56650618634582_2_alg».proof.Proof.Pieces
import proofs.«123638_j56650618634582_2_alg».proof.Proof.Payloads
import proofs.«123638_j56650618634582_2_alg».proof.Proof.Blend
import Idealize.ShloMosaic.Lib.Pipeline.Value
import Idealize.ShloMosaic.Lib.ValueIdx

noncomputable section

open scoped BigOperators

namespace Cert.KernelIdeal.Norms

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The field, the signal, the influence map and the strength as the first kernel finds them. -/
abbrev fld (c : Dev nD) : Cert.Blend.Arr := V c main_arg0
abbrev sgl (c : Dev nD) : Cert.Blend.Arr := V c main_arg1
abbrev infl (c : Dev nD) : Cert.Blend.Arr := V c main_v91
abbrev str (c : Dev nD) : EReal := V c main_v92 (ix2 (0 : Fin 1) (0 : Fin 1))

/-- The update of the whole field. -/
abbrev updV (c : Dev nD) : Cert.Blend.Arr := Cert.Blend.upd (fld V c) (sgl V c) (infl V c) (str V c)

/-! ## The tiles' blocks are rows of the arrays -/

/-- The printed block indices over the grid: the three row-tiled inputs and the update output sit at block row `t`,
    the strength at its one block, each accumulator at its half's block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val / 16 ∧ win0_5.index t (1 : Fin 3) = 0 ∧ win0_5.index t (2 : Fin 3) = 0
    ∧ win0_6.index t (0 : Fin 3) = t.val / 16 ∧ win0_6.index t (1 : Fin 3) = 0 ∧ win0_6.index t (2 : Fin 3) = 0 :=
  (by decide +kernel : ∀ t : Fin grid0.N, _)

theorem tile_lt (t : Fin cfg0.N) : t.val < 32 := lt_of_lt_of_eq t.isLt (show cfg0.N = 32 from N_0)

/-- Row `r` of tile `t` is row `128 t + r` of the array. -/
theorem row_lt (t : Fin cfg0.N) (r : Fin 128) : t.val * 128 + r.val < 4096 := by
  have := tile_lt t; have := r.isLt; omega

/-- Tile `t`'s block of the field, entry by entry. -/
theorem blk_fld (c : Dev nD) (t : Fin cfg0.N) (r : Fin 128) (l : Fin 4096) :
    (iblk0 V c 0 t : Vec Ideal S128x4096 .f32) (ix2 r l) = fld V c (ix2 ⟨t.val * 128 + r.val, row_lt t r⟩ l) := by
  unfold iblk0
  rw [View.read_apply]
  show V c main_arg0 (((cfg0.win 0).blk t).view.emb (ix2 r l)) = _
  refine congrArg (V c main_arg0) (funext fun a => Fin.ext ?_)
  obtain ⟨e0, e1, -⟩ := idx_facts t
  match a with
  | ⟨0, _⟩ => show win0_0.index t (0 : Fin 2) * 128 + 1 * r.val = t.val * 128 + r.val; omega
  | ⟨1, _⟩ => show win0_0.index t (1 : Fin 2) * 4096 + 1 * l.val = l.val; omega

/-- Tile `t`'s block of the signal, entry by entry. -/
theorem blk_sgl (c : Dev nD) (t : Fin cfg0.N) (r : Fin 128) (l : Fin 4096) :
    (iblk0 V c 1 t : Vec Ideal S128x4096 .f32) (ix2 r l) = sgl V c (ix2 ⟨t.val * 128 + r.val, row_lt t r⟩ l) := by
  unfold iblk0
  rw [View.read_apply]
  show V c main_arg1 (((cfg0.win 1).blk t).view.emb (ix2 r l)) = _
  refine congrArg (V c main_arg1) (funext fun a => Fin.ext ?_)
  obtain ⟨-, -, e0, e1, -⟩ := idx_facts t
  match a with
  | ⟨0, _⟩ => show win0_1.index t (0 : Fin 2) * 128 + 1 * r.val = t.val * 128 + r.val; omega
  | ⟨1, _⟩ => show win0_1.index t (1 : Fin 2) * 4096 + 1 * l.val = l.val; omega

/-- Tile `t`'s block of the influence map, entry by entry. -/
theorem blk_infl (c : Dev nD) (t : Fin cfg0.N) (r : Fin 128) (l : Fin 4096) :
    (iblk0 V c 2 t : Vec Ideal S128x4096 .f32) (ix2 r l) = infl V c (ix2 ⟨t.val * 128 + r.val, row_lt t r⟩ l) := by
  unfold iblk0
  rw [View.read_apply]
  show V c main_v91 (((cfg0.win 2).blk t).view.emb (ix2 r l)) = _
  refine congrArg (V c main_v91) (funext fun a => Fin.ext ?_)
  obtain ⟨-, -, -, -, e0, e1, -⟩ := idx_facts t
  match a with
  | ⟨0, _⟩ => show win0_2.index t (0 : Fin 2) * 128 + 1 * r.val = t.val * 128 + r.val; omega
  | ⟨1, _⟩ => show win0_2.index t (1 : Fin 2) * 4096 + 1 * l.val = l.val; omega

/-- Every tile reads the strength's one entry. -/
theorem blk_str (c : Dev nD) (t : Fin cfg0.N) :
    (iblk0 V c 3 t : Vec Ideal S1x1 .f32) (ix2 (0 : Fin 1) (0 : Fin 1)) = str V c := by
  unfold iblk0
  rw [View.read_apply]
  show V c main_v92 (((cfg0.win 3).blk t).view.emb (ix2 (0 : Fin 1) (0 : Fin 1))) = _
  refine congrArg (V c main_v92) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 1 + 1 * 0 = 0; omega

/-! ## A tile's values are the arrays' values on its rows -/

/-- The update on tile `t` is the whole update on the tile's rows. -/
theorem tileUpd_blk (c : Dev nD) (t : Fin cfg0.N) (r : Fin 128) (l : Fin 4096) :
    tileUpd (iblk0 V c 0 t : Vec Ideal S128x4096 .f32) (iblk0 V c 1 t : Vec Ideal S128x4096 .f32)
        (iblk0 V c 2 t : Vec Ideal S128x4096 .f32) ((iblk0 V c 3 t : Vec Ideal S1x1 .f32) (ix2 (0 : Fin 1) (0 : Fin 1))) (ix2 r l)
      = updV V c (ix2 ⟨t.val * 128 + r.val, row_lt t r⟩ l) := by
  unfold tileUpd tileWeight
  rw [blk_fld, blk_sgl, blk_infl, blk_str]
  rfl

/-- A tile's sum of squares of a block that is the rows of `x` is `x`'s sum of squares over the tile. -/
theorem tileSum_rows (x : Cert.Blend.Arr) (b : S128x4096.Idx → EReal) (t : Fin cfg0.N)
    (hb : ∀ (r : Fin 128) (l : Fin 4096), b (ix2 r l) = x (ix2 ⟨t.val * 128 + r.val, row_lt t r⟩ l)) :
    tileSum b = Cert.Blend.tileSq x t.val := by
  unfold tileSum Cert.Blend.tileSq
  rw [← Fin.sum_univ_eq_sum_range (fun r => Cert.Blend.rowSqN x (t.val * 128 + r)) 128]
  refine Finset.sum_congr rfl fun r _ => ?_
  rw [Cert.Blend.rowSqN_of_lt x (row_lt t r)]
  unfold Cert.Blend.rowSq
  refine Finset.sum_congr rfl fun l _ => ?_
  rw [hb]

/-! ## One tile's step -/

/-- In both cases the update block is stored whole. -/
theorem after_upd (c : Dev nD) (t : Fin cfg0.N) :
    (outsAt0 V c t.val t.isLt).1
      = k0_pay5 (F := Ideal) (iblk0 V c 3 t : Vec Ideal S1x1 .f32) (iblk0 V c 0 t : Vec Ideal S128x4096 .f32)
          (iblk0 V c 1 t : Vec Ideal S128x4096 .f32) (iblk0 V c 2 t : Vec Ideal S128x4096 .f32) := by
  by_cases h0 : t.val % 16 = 0
  · rw [outsAt0_A V c t h0]
    dsimp only
    rw [outA_4]
  · rw [outsAt0_B V c t h0]
    dsimp only
    rw [outB_4]

/-- At a half's first tile the field's accumulator becomes the tile's sum of squares. -/
theorem acc_f_first (c : Dev nD) (t : Fin cfg0.N) (h0 : t.val % 16 = 0) :
    (outsAt0 V c t.val t.isLt).2.1 (ix3 (0 : Fin 1) (0 : Fin 1) (0 : Fin 1)) = Cert.Blend.tileSq (fld V c) t.val := by
  rw [outsAt0_A V c t h0]
  dsimp only
  rw [outA_5, pay1_apply, pay8_apply, pay3_apply, pay6_apply, zero_add]
  exact tileSum_rows (fld V c) _ t (blk_fld V c t)

/-- At a half's first tile the update's accumulator becomes the tile's sum of squares. -/
theorem acc_u_first (c : Dev nD) (t : Fin cfg0.N) (h0 : t.val % 16 = 0) :
    (outsAt0 V c t.val t.isLt).2.2 (ix3 (0 : Fin 1) (0 : Fin 1) (0 : Fin 1)) = Cert.Blend.tileSq (updV V c) t.val := by
  rw [outsAt0_A V c t h0]
  dsimp only
  rw [outA_6, pay2_apply, pay4_apply, pay7_apply, zero_add]
  exact tileSum_rows (updV V c) _ t (tileUpd_blk V c t)

/-- At any other tile the field's accumulator grows by the tile's sum of squares. -/
theorem acc_f_next (c : Dev nD) (t : Fin cfg0.N) (h0 : ¬t.val % 16 = 0) :
    (outsAt0 V c t.val t.isLt).2.1 (ix3 (0 : Fin 1) (0 : Fin 1) (0 : Fin 1))
      = (outsAt0 V c (t.val - 1) (Nat.lt_of_le_of_lt (Nat.sub_le _ _) t.isLt)).2.1 (ix3 (0 : Fin 1) (0 : Fin 1) (0 : Fin 1))
        + Cert.Blend.tileSq (fld V c) t.val := by
  rw [outsAt0_B V c t h0]
  dsimp only
  rw [outB_5, pay1_apply, pay8_apply, pay6_apply]
  rw [tileSum_rows (fld V c) _ t (blk_fld V c t)]

/-- At any other tile the update's accumulator grows by the tile's sum of squares. -/
theorem acc_u_next (c : Dev nD) (t : Fin cfg0.N) (h0 : ¬t.val % 16 = 0) :
    (outsAt0 V c t.val t.isLt).2.2 (ix3 (0 : Fin 1) (0 : Fin 1) (0 : Fin 1))
      = (outsAt0 V c (t.val - 1) (Nat.lt_of_le_of_lt (Nat.sub_le _ _) t.isLt)).2.2 (ix3 (0 : Fin 1) (0 : Fin 1) (0 : Fin 1))
        + Cert.Blend.tileSq (updV V c) t.val := by
  rw [outsAt0_B V c t h0]
  dsimp only
  rw [outB_6, pay2_apply, pay7_apply]
  rw [tileSum_rows (updV V c) _ t (tileUpd_blk V c t)]

/-! ## The induction over the tiles -/

/-- The sum of squares of `x` over the tiles of tile `n`'s half, up to and including tile `n`. -/
def partialSq (x : Cert.Blend.Arr) (n : ℕ) : EReal :=
  ∑ i ∈ Finset.range (n % 16 + 1), Cert.Blend.tileSq x (n / 16 * 16 + i)

theorem partialSq_first (x : Cert.Blend.Arr) (n : ℕ) (h0 : n % 16 = 0) : partialSq x n = Cert.Blend.tileSq x n := by
  unfold partialSq
  rw [h0, Finset.sum_range_one]
  exact congrArg _ (by omega)

theorem partialSq_next (x : Cert.Blend.Arr) (n : ℕ) (h0 : ¬n % 16 = 0) :
    partialSq x n = partialSq x (n - 1) + Cert.Blend.tileSq x n := by
  unfold partialSq
  have e1 : (n - 1) % 16 + 1 = n % 16 := by omega
  have e2 : (n - 1) / 16 = n / 16 := by omega
  rw [e1, e2, Finset.sum_range_succ]
  exact congrArg _ (congrArg _ (by omega))

/-- After tile `n` the two accumulators hold the partial sums of squares of the field and of the update. -/
theorem acc_eq (c : Dev nD) : ∀ (n : ℕ) (hn : n < cfg0.N),
    (outsAt0 V c n hn).2.1 (ix3 (0 : Fin 1) (0 : Fin 1) (0 : Fin 1)) = partialSq (fld V c) n
    ∧ (outsAt0 V c n hn).2.2 (ix3 (0 : Fin 1) (0 : Fin 1) (0 : Fin 1)) = partialSq (updV V c) n
  | 0, hn => ⟨(acc_f_first V c ⟨0, hn⟩ rfl).trans (partialSq_first _ 0 rfl).symm,
              (acc_u_first V c ⟨0, hn⟩ rfl).trans (partialSq_first _ 0 rfl).symm⟩
  | n + 1, hn => by
    by_cases h0 : (n + 1) % 16 = 0
    · exact ⟨(acc_f_first V c ⟨n + 1, hn⟩ h0).trans (partialSq_first _ _ h0).symm,
             (acc_u_first V c ⟨n + 1, hn⟩ h0).trans (partialSq_first _ _ h0).symm⟩
    · have ih := acc_eq c n (Nat.lt_of_succ_lt hn)
      refine ⟨(acc_f_next V c ⟨n + 1, hn⟩ h0).trans ?_, (acc_u_next V c ⟨n + 1, hn⟩ h0).trans ?_⟩
      · rw [partialSq_next _ _ h0]
        exact congrArg (· + _) ih.1
      · rw [partialSq_next _ _ h0]
        exact congrArg (· + _) ih.2

/-- At a half's last tile the partial sum is the half's sum. -/
theorem partialSq_last (x : Cert.Blend.Arr) (n : ℕ) (h : n % 16 = 15) : partialSq x n = Cert.Blend.halfSq x (n / 16) := by
  unfold partialSq Cert.Blend.halfSq
  rw [h]

end Cert.KernelIdeal.Norms

end
-- ==== Proof.Finals0.lean ====
/-
  The first kernel's three output arrays after all 32 tiles.

  The update array is written back tile by tile, tile `t` covering rows `128 t` to `128 t + 127`: it ends holding the
  whole update. Each accumulator array has one entry per half, written back once, after the half's last tile (tiles 15
  and 31), when the accumulator holds the half's whole sum of squares.
-/
import proofs.«123638_j56650618634582_2_alg».proof.Proof.Accum

noncomputable section

open scoped BigOperators

namespace Cert.KernelIdeal.Norms

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The two halves' sums of squares of `x`, as a 2-by-1-by-1 array. -/
def halves (x : Cert.Blend.Arr) : S2x1x1.Idx → EReal := fun j => Cert.Blend.halfSq x (j 0).val

/-! ## The update array -/

/-- What tile `t` writes back is the whole update read on the tile's rows. -/
theorem flushed_upd (c : Dev nD) (t : Fin cfg0.N) :
    (dat0 V c).flushed 4 t = ((cfg0.win 4).blk t).view.read (Elt Ideal) (updV V c) := by
  show (cfg0.win 4).cut (grid0.coords t) ((dat0 V c).after 4 t) = _
  rw [after0_4, after_upd]
  refine funext fun (y : S128x4096.Idx) => ?_
  obtain ⟨r, l, rfl⟩ : ∃ (r : Fin 128) (l : Fin 4096), y = ix2 r l := ⟨y 0, y 1, eq_ix2 y⟩
  rw [View.read_apply]
  show k0_pay5 (F := Ideal) (iblk0 V c 3 t : Vec Ideal S1x1 .f32) (iblk0 V c 0 t : Vec Ideal S128x4096 .f32)
      (iblk0 V c 1 t : Vec Ideal S128x4096 .f32) (iblk0 V c 2 t : Vec Ideal S128x4096 .f32) (ix2 r l)
    = updV V c (((cfg0.win 4).blk t).view.emb (ix2 r l))
  rw [pay5_apply, tileUpd_blk]
  refine congrArg (updV V c) (funext fun a => Fin.ext ?_)
  have e := idx_facts t
  match a with
  | ⟨0, _⟩ => show t.val * 128 + r.val = win0_4.index t (0 : Fin 2) * 128 + 1 * r.val; omega
  | ⟨1, _⟩ => show l.val = win0_4.index t (1 : Fin 2) * 4096 + 1 * l.val; omega

theorem mem_blk_upd (t : Fin cfg0.N) (i : S4096x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v93_0).slice (win0_4.rect t)).set ↔ _
  rw [View.set_slice_whole, Rect.mem_set_unit]
  exact Iff.rfl

/-- Row `r` is covered by tile `r / 128`. -/
theorem cover_upd (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hlt : (i 0).val / 128 < cfg0.N := lt_of_lt_of_eq (by omega : (i 0).val / 128 < 32) N_0.symm
  refine ⟨⟨(i 0).val / 128, hlt⟩, flush0_4 _, ?_⟩
  rw [mem_blk_upd]
  have e := idx_facts ⟨(i 0).val / 128, hlt⟩
  dsimp only at e
  intro a
  match a with
  | ⟨0, _⟩ => show win0_4.index ⟨(i 0).val / 128, hlt⟩ (0 : Fin 2) * 128 ≤ (i 0).val ∧ (i 0).val < win0_4.index ⟨(i 0).val / 128, hlt⟩ (0 : Fin 2) * 128 + 128; omega
  | ⟨1, _⟩ => show win0_4.index ⟨(i 0).val / 128, hlt⟩ (1 : Fin 2) * 4096 ≤ (i 1).val ∧ (i 1).val < win0_4.index ⟨(i 0).val / 128, hlt⟩ (1 : Fin 2) * 4096 + 4096; omega

/-- After the first kernel its first output holds the whole update. -/
theorem final_upd (c : Dev nD) : (dat0 V c).arrAt 4 cfg0.N = updV V c :=
  (dat0 V c).arrAt_eq_of_cover 4 (updV V c) (fun t _ => flushed_upd V c t) cover_upd

/-! ## The two accumulator arrays -/

theorem mem_blk_accF (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v93_1).slice (win0_5.rect t)).set ↔ _
  rw [View.set_slice_whole, Rect.mem_set_unit]
  exact Iff.rfl

theorem mem_blk_accU (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v93_2).slice (win0_6.rect t)).set ↔ _
  rw [View.set_slice_whole, Rect.mem_set_unit]
  exact Iff.rfl

/-- What a half's last tile writes back is that half's sum of squares of the field. -/
theorem flushed_accF (c : Dev nD) (t : Fin cfg0.N) (hf : (cfg0.win 5).flush t = true) :
    (dat0 V c).flushed 5 t = ((cfg0.win 5).blk t).view.read (Elt Ideal) (halves (fld V c)) := by
  have h15 : t.val % 16 = 15 := (flush0_5 t).mp hf
  show (cfg0.win 5).cut (grid0.coords t) ((dat0 V c).after 5 t) = _
  rw [after0_5]
  refine funext fun (y : S1x1x1.Idx) => ?_
  rw [idx111 y, View.read_apply]
  show (outsAt0 V c t.val t.isLt).2.1 (ix3 (0 : Fin 1) (0 : Fin 1) (0 : Fin 1))
    = halves (fld V c) (((cfg0.win 5).blk t).view.emb (ix3 (0 : Fin 1) (0 : Fin 1) (0 : Fin 1)))
  rw [(acc_eq V c t.val t.isLt).1, partialSq_last _ _ h15]
  unfold halves
  refine congrArg (Cert.Blend.halfSq (fld V c)) ?_
  have e := idx_facts t
  show t.val / 16 = win0_5.index t (0 : Fin 3) * 1 + 1 * 0
  omega

/-- Each half's entry is covered by that half's last tile. -/
theorem cover_accF (i : S2x1x1.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 1 := (i 2).isLt
  have hlt : (i 0).val * 16 + 15 < cfg0.N := lt_of_lt_of_eq (by omega : (i 0).val * 16 + 15 < 32) N_0.symm
  refine ⟨⟨(i 0).val * 16 + 15, hlt⟩, (flush0_5 _).mpr (by dsimp only; omega), ?_⟩
  rw [mem_blk_accF]
  have e := idx_facts ⟨(i 0).val * 16 + 15, hlt⟩
  dsimp only at e
  intro a
  match a with
  | ⟨0, _⟩ => show win0_5.index ⟨(i 0).val * 16 + 15, hlt⟩ (0 : Fin 3) * 1 ≤ (i 0).val ∧ (i 0).val < win0_5.index ⟨(i 0).val * 16 + 15, hlt⟩ (0 : Fin 3) * 1 + 1; omega
  | ⟨1, _⟩ => show win0_5.index ⟨(i 0).val * 16 + 15, hlt⟩ (1 : Fin 3) * 1 ≤ (i 1).val ∧ (i 1).val < win0_5.index ⟨(i 0).val * 16 + 15, hlt⟩ (1 : Fin 3) * 1 + 1; omega
  | ⟨2, _⟩ => show win0_5.index ⟨(i 0).val * 16 + 15, hlt⟩ (2 : Fin 3) * 1 ≤ (i 2).val ∧ (i 2).val < win0_5.index ⟨(i 0).val * 16 + 15, hlt⟩ (2 : Fin 3) * 1 + 1; omega

/-- After the first kernel its second output holds the two halves' sums of squares of the field. -/
theorem final_accF (c : Dev nD) : (dat0 V c).arrAt 5 cfg0.N = halves (fld V c) :=
  (dat0 V c).arrAt_eq_of_cover 5 (halves (fld V c)) (flushed_accF V c) cover_accF

/-- What a half's last tile writes back is that half's sum of squares of the update. -/
theorem flushed_accU (c : Dev nD) (t : Fin cfg0.N) (hf : (cfg0.win 6).flush t = true) :
    (dat0 V c).flushed 6 t = ((cfg0.win 6).blk t).view.read (Elt Ideal) (halves (updV V c)) := by
  have h15 : t.val % 16 = 15 := (flush0_6 t).mp hf
  show (cfg0.win 6).cut (grid0.coords t) ((dat0 V c).after 6 t) = _
  rw [after0_6]
  refine funext fun (y : S1x1x1.Idx) => ?_
  rw [idx111 y, View.read_apply]
  show (outsAt0 V c t.val t.isLt).2.2 (ix3 (0 : Fin 1) (0 : Fin 1) (0 : Fin 1))
    = halves (updV V c) (((cfg0.win 6).blk t).view.emb (ix3 (0 : Fin 1) (0 : Fin 1) (0 : Fin 1)))
  rw [(acc_eq V c t.val t.isLt).2, partialSq_last _ _ h15]
  unfold halves
  refine congrArg (Cert.Blend.halfSq (updV V c)) ?_
  have e := idx_facts t
  show t.val / 16 = win0_6.index t (0 : Fin 3) * 1 + 1 * 0
  omega

/-- Each half's entry is covered by that half's last tile. -/
theorem cover_accU (i : S2x1x1.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 1 := (i 2).isLt
  have hlt : (i 0).val * 16 + 15 < cfg0.N := lt_of_lt_of_eq (by omega : (i 0).val * 16 + 15 < 32) N_0.symm
  refine ⟨⟨(i 0).val * 16 + 15, hlt⟩, (flush0_6 _).mpr (by dsimp only; omega), ?_⟩
  rw [mem_blk_accU]
  have e := idx_facts ⟨(i 0).val * 16 + 15, hlt⟩
  dsimp only at e
  intro a
  match a with
  | ⟨0, _⟩ => show win0_6.index ⟨(i 0).val * 16 + 15, hlt⟩ (0 : Fin 3) * 1 ≤ (i 0).val ∧ (i 0).val < win0_6.index ⟨(i 0).val * 16 + 15, hlt⟩ (0 : Fin 3) * 1 + 1; omega
  | ⟨1, _⟩ => show win0_6.index ⟨(i 0).val * 16 + 15, hlt⟩ (1 : Fin 3) * 1 ≤ (i 1).val ∧ (i 1).val < win0_6.index ⟨(i 0).val * 16 + 15, hlt⟩ (1 : Fin 3) * 1 + 1; omega
  | ⟨2, _⟩ => show win0_6.index ⟨(i 0).val * 16 + 15, hlt⟩ (2 : Fin 3) * 1 ≤ (i 2).val ∧ (i 2).val < win0_6.index ⟨(i 0).val * 16 + 15, hlt⟩ (2 : Fin 3) * 1 + 1; omega

/-- After the first kernel its third output holds the two halves' sums of squares of the update. -/
theorem final_accU (c : Dev nD) : (dat0 V c).arrAt 6 cfg0.N = halves (updV V c) :=
  (dat0 V c).arrAt_eq_of_cover 6 (halves (updV V c)) (flushed_accU V c) cover_accU

end Cert.KernelIdeal.Norms

end
-- ==== Proof.Region1.lean ====
/- THE SECOND REGION'S VALUE.

   The program's second kernel region runs over a grid of 8 points. At point `t` it loads rows `512 t … 512 t + 511`
   (all 4096 columns) of its 4096x4096 input array and the one entry of a 1x1 operand, multiplies every loaded entry by
   that one entry, and stores the 512x4096 product as rows `512 t … 512 t + 511` of its output array. The 8 row blocks
   tile the output, so after the region the output array is the input array times the operand's entry, entry by entry.

   This is proved at the extended reals and for ANY contents `V` the region is entered with: what point `t` writes back
   is block `t` of the scaled array (`flushed_eq`), every index lies in the block of the point `row / 512` (`covered`),
   hence the whole array (`final_scaled`). -/
import proofs.«123638_j56650618634582_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Rescale

open Cert.KernelIdeal Cert.KernelIdeal.Gen Idealize.ShloMosaic Idealize.ShloMosaic.TcCoe Idealize.ShloMosaic.ValueIdx
open Idealize.ShloMosaic.Pipeline (Dat Cfg Window)

/-! The region's three windows are over the arrays `main_v93_0` (input), `main_v101` (the 1x1 operand) and `main_v102`
    (output). -/
example : Pipeline.arrRef spec1 0 = main_v93_0 := rfl
example : Pipeline.arrRef spec1 1 = main_v101 := rfl
example : Pipeline.arrRef spec1 2 = main_v102 := rfl

/-- The body's loads and its store are at offset zero on both axes. -/
theorem zero_offsets : (![0, 0] : Fin 2 → Nat) = fun _ => 0 := funext fun a => by fin_cases a <;> rfl

/-- An array scaled by the one entry of a 1x1 array: what the region computes, as one function of its two input arrays. -/
abbrev scaled (x : S4096x4096.Idx → EReal) (s : S1x1.Idx → EReal) : S4096x4096.Idx → EReal :=
  fun i => x i * s (ix2 (0 : Fin 1) (0 : Fin 1))

/-- The body's payload at an index: the loaded block's entry times the one entry of the loaded 1x1 operand. -/
theorem scaled_apply (x0 : Vec Ideal S512x4096 .f32) (x1 : Vec Ideal S1x1 .f32) (j : S512x4096.Idx) :
    k1_pay1 x0 x1 j = x0 j * x1 (ix2 (0 : Fin 1) (0 : Fin 1)) := by
  show mulf (F := Ideal) (s := S512x4096) (φ := .f32)
      (shapeCast (α := Ideal .f32) S512x4096 x0 shapeCasts_S512x4096_S512x4096)
      (broadcastTo (α := Ideal .f32) S512x4096 (shapeCast (α := Ideal .f32) S1x1 x1 shapeCasts_S1x1_S1x1) broadcasts_S1x1_S512x4096) j = _
  rw [mulf_apply, shapeCast_self, shapeCast_self,
    broadcastTo_apply (α := Ideal .f32) x1 broadcasts_S1x1_S512x4096 j (ix2 (0 : Fin 1) (0 : Fin 1)) (fun a => by
      match a with
      | ⟨0, _⟩ => rfl
      | ⟨1, _⟩ => rfl)]

/-- A product of two reads, at indices equal to a given index and to the origin, is the scaled array there. -/
theorem mul_eq_scaled (x : S4096x4096.Idx → EReal) (s : S1x1.Idx → EReal) {a a' : S4096x4096.Idx} {b : S1x1.Idx}
    (ha : a = a') (hb : b = ix2 (0 : Fin 1) (0 : Fin 1)) : x a * s b = scaled x s a' := by
  subst ha hb; rfl

/-- The printed index maps, decided over the grid: the input's block moves with the output's, the 1x1 operand's block
    stays at the origin, and the output's block at point `t` is row block `t`, column block `0`. -/
theorem idx_facts : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the input array scaled by the operand's entry. -/
theorem flushed_eq (c : Dev nD) (t : Fin cfg1.N) :
    (dat1 (F := Ideal) V c).flushed 2 t
      = ((cfg1.win 2).blk t).view.read (Elt Ideal) (scaled (V c main_v93_0) (V c main_v101)) := by
  show (cfg1.win 2).cut (grid1.coords t) ((dat1 V c).after 2 t) = _
  rw [after1_2]
  unfold out1_2
  rw [View.canon_unit_zero zero_offsets]
  simp only [View.ld_unit_zero (S := S512x4096) zero_offsets, View.ld_unit_zero (S := S1x1) zero_offsets]
  funext j
  obtain ⟨e0, e1, e2, e3, e4, e5⟩ := idx_facts t
  -- the input's block and the output's block at point `t` sit at the same place of their arrays
  have h0 : ((cfg1.win 0).blk t).view.emb j = ((cfg1.win 2).blk t).view.emb j := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 4096 + 1 * (j 1).val = win1_2.index t (1 : Fin 2) * 4096 + 1 * (j 1).val; omega
  -- the 1x1 operand's block is the whole operand
  have h1 : ((cfg1.win 1).blk t).view.emb (ix2 (0 : Fin 1) (0 : Fin 1)) = ix2 (0 : Fin 1) (0 : Fin 1) := by
    funext a; apply Fin.ext
    match a with
    | ⟨0, _⟩ => show win1_1.index t (0 : Fin 2) * 1 + 1 * 0 = 0; omega
    | ⟨1, _⟩ => show win1_1.index t (1 : Fin 2) * 1 + 1 * 0 = 0; omega
  show k1_pay1 (iblk1 V c 0 t) (iblk1 V c 1 t) j = _
  rw [scaled_apply]
  exact mul_eq_scaled (V c main_v93_0) (V c main_v101) h0 h1

/-- An index of the array is in point `t`'s block iff each coordinate is in the block's range on its axis. -/
theorem mem_blk (t : Fin cfg1.N) (i : S4096x4096.Idx) :
    i ∈ ((cfg1.win 2).blk t).view.set ↔ ∀ a : Fin 2, win1_2.index t a * S512x4096.size a ≤ (i a).val
      ∧ (i a).val < win1_2.index t a * S512x4096.size a + S512x4096.size a := by
  show i ∈ ((View.whole main_v102).slice (win1_2.rect t)).set ↔ _
  rw [View.set_slice_whole, Rect.mem_set_unit]
  exact Iff.rfl

/-- The output's blocks tile its array: row `r` lies in the block of point `r / 512`, which spans every column, and
    every point writes its block back. -/
theorem covered (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ : ∃ t : Fin cfg1.N, t.val = (i 0).val / 512 :=
    ⟨⟨(i 0).val / 512, by show (i 0).val / 512 < 8; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- THE ARRAY after the region: its input array scaled, entry by entry, by the one entry of the 1x1 operand — whatever
    contents `V` the region is entered with. -/
theorem final_scaled (c : Dev nD) :
    (dat1 (F := Ideal) V c).arrAt 2 cfg1.N = scaled (V c main_v93_0) (V c main_v101) :=
  (dat1 (F := Ideal) V c).arrAt_eq_of_cover 2 (scaled (V c main_v93_0) (V c main_v101))
    (fun t _ => flushed_eq V c t) covered

end Cert.KernelIdeal.Rescale

end
-- ==== Proof.LibReads.lean ====
/-
  Reading a buffer through a straight line of host operations.

  `after ops V` is what the buffers hold once the operations have run in order from contents `V`: each operation
  rewrites the buffer it writes and leaves the rest. For a literal list of operations over literal references, what one
  buffer holds afterwards is a computation: at the operation's own result buffer its function's value of the operands'
  contents, at any other buffer what was there. One simplification pass does this wherever the operands sit in
  argument position. Where an operand sits inside a list of (shape, array) pairs — the operands of a concatenation —
  the pass leaves the read standing; a short loop of single rewrites finishes those. `reads` is the two in a row, and
  stops at whatever the line started from (a variable or a definition it cannot unfold), which makes it usable on one
  stretch of a longer program at a time.

-/
import Idealize.ShloMosaic.Lib.StableHlo.Run

noncomputable section

namespace Cert.LibReads

open Idealize.ShloMosaic Idealize.ShloMosaic.StableHlo

/-- Reads left standing inside a concatenation's list of operands: each operation's result at its own buffer is its
    function's value, at any other buffer what was there. -/
macro "finish_reads" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- Read a buffer through a literal line of host operations, down to the contents the line started from. -/
macro "reads" : tactic => `(tactic| ((try after_results_simp); finish_reads))

end Cert.LibReads

end
-- ==== Proof.HostReads.lean ====
/-
  What the kernel program's host operations leave in the buffers its two regions read and write.

  The program is a line of host operations, a region, a second line of host operations, a second region. A buffer's
  contents at a region's entry are a fold over the operations before it: an operation rewrites the buffer it writes and
  leaves every other buffer alone. So a buffer that no operation of a stretch writes is read through the stretch
  unchanged, and a buffer an operation writes holds that operation's function of its operands' contents.
-/
import proofs.«123638_j56650618634582_2_alg».proof.Proof.Gen.KernelIdeal.Frame
import proofs.«123638_j56650618634582_2_alg».proof.Proof.Gen.ReferenceIdeal.Read
import proofs.«123638_j56650618634582_2_alg».proof.Proof.Blend
import proofs.«123638_j56650618634582_2_alg».proof.Proof.LibReads
import Idealize.ShloMosaic.Lib.StableHlo.Run
import Idealize.ShloMosaic.Lib.ValueIdx

noncomputable section

open scoped BigOperators

namespace Cert.KernelIdeal.HostReads

open Cert.KernelIdeal Cert.KernelIdeal.Gen Idealize.ShloMosaic Idealize.ShloMosaic.TcCoe Idealize.ShloMosaic.ValueIdx
open Idealize.SL.Sem Cert.LibReads

variable (m : (ℓ : Loc nD τ sig) → Buf (Elt Ideal) ℓ) (ρ : Dev nD → PrngReg) (c : Dev nD)

/-- No operation of the stretch writes the buffer: every operation's written buffer is a different reference. -/
macro "unwritten" : tactic =>
  `(tactic| (refine StableHlo.after_of_forall_not_mem _ _ (List.forall_iff_forall_mem.mp ?_)
             simp only [hostOps0, hostOps0_1, hostOps0_2, hostOps0_3, hostOps0_4, hostOps0_5, hostOps0_6, hostOps1, hostOps1_1,
               hostOps1_2, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-- The second region's output array at its exit is what the pipeline leaves there. -/
theorem exit_result : W12 m ρ c (Proc.devRef .tc main_v102) = (dat1 (V11 m ρ) c).arrAt 2 cfg1.N :=
  W12_arr m ρ c 2

/-- The first region's updated field reaches the second region as the pipeline left it: no host operation between
    the two regions writes it. -/
theorem mid_update : V11 m ρ c main_v93_0 = (dat0 (V7 m ρ) c).arrAt 4 cfg0.N :=
  calc W11 m ρ c (Proc.devRef .tc main_v93_0)
    _ = W10 m ρ c (Proc.devRef .tc main_v93_0) := by unwritten
    _ = W9 m ρ c (Proc.devRef .tc main_v93_0) := by unwritten
    _ = W8 m ρ c (Proc.devRef .tc main_v93_0) := by unwritten
    _ = (dat0 (V7 m ρ) c).arrAt 4 cfg0.N := W8_arr m ρ c 4
/-- A buffer none of the operations before the first region writes holds, at the region's entry, what it held at
    launch. The seven stretches are walked back one at a time. -/
theorem entry_of_unwritten (b : Ref sig .tc)
    (h6 : W7 m ρ c (Proc.devRef .tc b) = W6 m ρ c (Proc.devRef .tc b))
    (h5 : W6 m ρ c (Proc.devRef .tc b) = W5 m ρ c (Proc.devRef .tc b))
    (h4 : W5 m ρ c (Proc.devRef .tc b) = W4 m ρ c (Proc.devRef .tc b))
    (h3 : W4 m ρ c (Proc.devRef .tc b) = W3 m ρ c (Proc.devRef .tc b))
    (h2 : W3 m ρ c (Proc.devRef .tc b) = W2 m ρ c (Proc.devRef .tc b))
    (h1 : W2 m ρ c (Proc.devRef .tc b) = W1 m ρ c (Proc.devRef .tc b))
    (h0 : W1 m ρ c (Proc.devRef .tc b) = W0 m ρ c (Proc.devRef .tc b)) :
    W7 m ρ c (Proc.devRef .tc b) = m ((c : Thread nD τ).loc b) :=
  h6.trans (h5.trans (h4.trans (h3.trans (h2.trans (h1.trans (h0.trans rfl))))))

/-- The field enters the first region as launched. -/
theorem entry_field : V7 m ρ c main_arg0 = m ((c : Thread nD τ).loc main_arg0) :=
  entry_of_unwritten m ρ c main_arg0 (by unwritten) (by unwritten) (by unwritten) (by unwritten) (by unwritten) (by unwritten)
    (by unwritten)

/-- The signal enters the first region as launched. -/
theorem entry_signal : V7 m ρ c main_arg1 = m ((c : Thread nD τ).loc main_arg1) :=
  entry_of_unwritten m ρ c main_arg1 (by unwritten) (by unwritten) (by unwritten) (by unwritten) (by unwritten) (by unwritten)
    (by unwritten)

/-- The 1 × 1 array the first region reads the strength from is the launched strength's one entry: a reshape
    keeps the entries in row-major order, and both arrays have exactly one. -/
theorem entry_strength :
    V7 m ρ c main_v92 (ix2 (0 : Fin 1) (0 : Fin 1)) = m ((c : Thread nD τ).loc main_arg4) ix0 := by
  show StableHlo.after hostOps0_6 (W6 m ρ c) (Proc.devRef .tc main_v92) (ix2 (0 : Fin 1) (0 : Fin 1)) = _
  reads
  refine (shapeCast_apply (W0 m ρ c (Proc.devRef .tc main_arg4)) shapeCasts_S_S1x1 (ix2 (0 : Fin 1) (0 : Fin 1)) ix0 ?_).trans rfl
  rw [Shape.rowMajor_val_two]
  exact (Nat.lt_one_iff.mp (S_.rowMajor ix0).isLt).trans rfl
/-- A 2 × 1 × 1 array has two entries, one per value of its first coordinate. -/
def idxEquiv211 : (⟨3, ![2, 1, 1]⟩ : Shape).Idx ≃ Fin 2 where
  toFun i := i 0
  invFun a := ix3 a (0 : Fin 1) (0 : Fin 1)
  left_inv i := by
    funext a
    match a with
    | ⟨0, _⟩ => rfl
    | ⟨1, _⟩ => exact Fin.ext (Nat.lt_one_iff.mp (i 1).isLt).symm
    | ⟨2, _⟩ => exact Fin.ext (Nat.lt_one_iff.mp (i 2).isLt).symm
  right_inv _ := rfl

/-- So the sum of its entries is the two entries added. -/
theorem sum_S2x1x1 {M : Type*} [AddCommMonoid M] (y : (⟨3, ![2, 1, 1]⟩ : Shape).Idx → M) :
    ∑ i, y i = y (ix3 (0 : Fin 2) (0 : Fin 1) (0 : Fin 1)) + y (ix3 (1 : Fin 2) (0 : Fin 1) (0 : Fin 1)) := by
  rw [← Equiv.sum_comp idxEquiv211.symm y, Fin.sum_univ_two]
  rfl

/-- The host's sum of a 2 × 1 × 1 array into a scalar, from the word of 0: the array's two entries added. -/
theorem host_sum (y : (⟨S2x1x1, .f32⟩ : BufTy).Contents (Elt Ideal)) (i : S_.Idx) :
    Host.reduceAdd (F := Ideal) y (constant (F := Ideal) S_ .f32 0x00000000#32) reducesTo_S2x1x1_S_d0_1_2 h_S_ i
      = y (ix3 (0 : Fin 2) (0 : Fin 1) (0 : Fin 1)) + y (ix3 (1 : Fin 2) (0 : Fin 1) (0 : Fin 1)) := by
  have h : Host.reduceAdd (F := Ideal) y (constant (F := Ideal) S_ .f32 0x00000000#32) reducesTo_S2x1x1_S_d0_1_2 h_S_ i
      = Ideal.ofBits .f32 0x00000000#32 + ∑ j : S2x1x1.Idx, y j := by
    simp only [Host.reduceAdd, Ideal.hostReduceAdd_def]
    exact Ideal.hostReduceAdd_total reducesTo_S2x1x1_S_d0_1_2 (fun b => b.elim0) y _ i
  rw [h, Ideal.ofBits_zero_f32, zero_add]
  exact sum_S2x1x1 y

/-- The rescaling factor as the host computes it from two 2 × 1 × 1 arrays of partial sums: with A the first array's
    total and B the second's, it is √A / √B where √B > 0 and 1 elsewhere. -/
theorem scale_read (y5 y6 : (⟨S2x1x1, .f32⟩ : BufTy).Contents (Elt Ideal)) (i : S_.Idx) :
    select
        (cmpf (F := Ideal) .ogt (Host.sqrt (F := Ideal) (Host.reduceAdd (F := Ideal) y6 (constant (F := Ideal) S_ .f32 0x00000000#32) reducesTo_S2x1x1_S_d0_1_2 h_S_))
          (constant (F := Ideal) S_ .f32 0x00000000#32))
        (Host.divf (F := Ideal) (Host.sqrt (F := Ideal) (Host.reduceAdd (F := Ideal) y5 (constant (F := Ideal) S_ .f32 0x00000000#32) reducesTo_S2x1x1_S_d0_1_2 h_S_))
          (Host.sqrt (F := Ideal) (Host.reduceAdd (F := Ideal) y6 (constant (F := Ideal) S_ .f32 0x00000000#32) reducesTo_S2x1x1_S_d0_1_2 h_S_)))
        (constant (F := Ideal) S_ .f32 0x3F800000#32) i
      = Scalar.select
          (Ideal.cmp .ogt (Ideal.sqrt (y6 (ix3 (0 : Fin 2) (0 : Fin 1) (0 : Fin 1)) + y6 (ix3 (1 : Fin 2) (0 : Fin 1) (0 : Fin 1)))) 0)
          (Ideal.div (Ideal.sqrt (y5 (ix3 (0 : Fin 2) (0 : Fin 1) (0 : Fin 1)) + y5 (ix3 (1 : Fin 2) (0 : Fin 1) (0 : Fin 1))))
            (Ideal.sqrt (y6 (ix3 (0 : Fin 2) (0 : Fin 1) (0 : Fin 1)) + y6 (ix3 (1 : Fin 2) (0 : Fin 1) (0 : Fin 1))))) 1 := by
  rw [← host_sum y5 i, ← host_sum y6 i, ← Cert.Blend.ofBits_one, ← Ideal.ofBits_zero_f32]
  rfl

/-- The first region's array of partial sums for the field's norm, as the region leaves it: two entries. -/
abbrev X5 : (⟨S2x1x1, .f32⟩ : BufTy).Contents (Elt Ideal) := (dat0 (V7 m ρ) c).arrAt 5 cfg0.N

/-- The first region's array of partial sums for the updated field's norm, as the region leaves it: two entries. -/
abbrev X6 : (⟨S2x1x1, .f32⟩ : BufTy).Contents (Elt Ideal) := (dat0 (V7 m ρ) c).arrAt 6 cfg0.N

/-- The 1 × 1 array the second region reads the rescaling factor from: with X5, X6 the first region's two arrays of
    partial sums (two entries each), the factor is √(X5's total) / √(X6's total) where √(X6's total) > 0, else 1. -/
theorem mid_scale :
    V11 m ρ c main_v101 (ix2 (0 : Fin 1) (0 : Fin 1))
      = Scalar.select
          (Ideal.cmp .ogt (Ideal.sqrt (X6 m ρ c (ix3 (0 : Fin 2) (0 : Fin 1) (0 : Fin 1))
            + X6 m ρ c (ix3 (1 : Fin 2) (0 : Fin 1) (0 : Fin 1)))) 0)
          (Ideal.div (Ideal.sqrt (X5 m ρ c (ix3 (0 : Fin 2) (0 : Fin 1) (0 : Fin 1))
              + X5 m ρ c (ix3 (1 : Fin 2) (0 : Fin 1) (0 : Fin 1))))
            (Ideal.sqrt (X6 m ρ c (ix3 (0 : Fin 2) (0 : Fin 1) (0 : Fin 1))
              + X6 m ρ c (ix3 (1 : Fin 2) (0 : Fin 1) (0 : Fin 1))))) 1 := by
  have h5 : W8 m ρ c (Proc.devRef .tc main_v93_1) = X5 m ρ c := W8_arr m ρ c 5
  have h6 : W8 m ρ c (Proc.devRef .tc main_v93_2) = X6 m ρ c := W8_arr m ρ c 6
  show StableHlo.after hostOps1_2 (W10 m ρ c) (Proc.devRef .tc main_v101) (ix2 (0 : Fin 1) (0 : Fin 1)) = _
  reads
  rw [h5, h6]
  generalize X5 m ρ c = y5
  generalize X6 m ρ c = y6
  refine (shapeCast_apply _ shapeCasts_S_S1x1 (ix2 (0 : Fin 1) (0 : Fin 1)) ix0 ?_).trans ?_
  · rw [Shape.rowMajor_val_two]
    exact (Nat.lt_one_iff.mp (S_.rowMajor ix0).isLt).trans rfl
  · exact scale_read y5 y6 ix0
set_option maxHeartbeats 1000000 in
/-- The influence map at the first region's entry is the stage the reference computes from the same four arguments:
    the two programs run the same operations on them. -/
theorem entry_influence :
    V7 m ρ c main_v91
      = Cert.ReferenceIdeal.Read.val_main_v91 (F := Ideal) (m ((c : Thread nD τ).loc main_arg2))
          (m ((c : Thread nD τ).loc main_arg3)) (m ((c : Thread nD τ).loc main_arg5)) (m ((c : Thread nD τ).loc main_arg6)) := by
  show StableHlo.after hostOps0_6 (W6 m ρ c) (Proc.devRef .tc main_v91) = _
  reads
  rfl

end Cert.KernelIdeal.HostReads

end
-- ==== Proof.KernelValue.lean ====
/-
  The kernel program's result array, as one function of its arguments.

  Region 1 multiplies region 0's update array by the one entry of a 1-by-1 operand; that entry is the rescaling factor
  the host computes between the regions from region 0's two accumulator arrays — the square roots of each array's two
  entries added up, their quotient, or 1 when the update's norm is not positive. The two entries of an accumulator array
  are the two halves' sums of squares, which add up to the whole sum of squares. The arrays region 0 reads are the
  field, the signal, the influence map the host built before it, and the strength.
-/
import proofs.«123638_j56650618634582_2_alg».proof.Proof.Gen.KernelIdeal.Frame
import proofs.«123638_j56650618634582_2_alg».proof.Proof.Gen.ReferenceIdeal.Read
import proofs.«123638_j56650618634582_2_alg».proof.Proof.Blend
import proofs.«123638_j56650618634582_2_alg».proof.Proof.Finals0
import proofs.«123638_j56650618634582_2_alg».proof.Proof.Region1
import proofs.«123638_j56650618634582_2_alg».proof.Proof.HostReads
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The influence map of the arguments: the shared host prefix, as one function. -/
abbrev influence (c : Dev nD) : Cert.Blend.Arr :=
  Cert.ReferenceIdeal.Read.val_main_v91 (F := Ideal) (m ((c : Thread nD τ).loc main_arg2)) (m ((c : Thread nD τ).loc main_arg3))
    (m ((c : Thread nD τ).loc main_arg5)) (m ((c : Thread nD τ).loc main_arg6))

/-- What the kernel program returns, as a function of its arguments. -/
abbrev value (c : Dev nD) : Cert.Blend.Arr :=
  Cert.Blend.result (m ((c : Thread nD τ).loc main_arg0)) (m ((c : Thread nD τ).loc main_arg1)) (influence m c)
    (m ((c : Thread nD τ).loc main_arg4) ix0)

/-- The two entries of an accumulator array add up to the whole sum of squares. -/
theorem halves_add (x : Cert.Blend.Arr) :
    Cert.KernelIdeal.Norms.halves x (ix3 (0 : Fin 2) (0 : Fin 1) (0 : Fin 1)) + Cert.KernelIdeal.Norms.halves x (ix3 (1 : Fin 2) (0 : Fin 1) (0 : Fin 1))
      = Cert.Blend.sumsq x :=
  (Cert.Blend.sumsq_eq_halves x).symm

/-- Region 0 reads the arguments' field, signal, influence map and strength, so its update is the arguments' update. -/
theorem upd_entry (c : Dev nD) :
    Cert.KernelIdeal.Norms.updV (V7 m ρ) c
      = Cert.Blend.upd (m ((c : Thread nD τ).loc main_arg0)) (m ((c : Thread nD τ).loc main_arg1)) (influence m c)
          (m ((c : Thread nD τ).loc main_arg4) ix0) := by
  show Cert.Blend.upd (V7 m ρ c main_arg0) (V7 m ρ c main_arg1) (V7 m ρ c main_v91) (V7 m ρ c main_v92 (ix2 (0 : Fin 1) (0 : Fin 1))) = _
  rw [Cert.KernelIdeal.HostReads.entry_field m ρ c, Cert.KernelIdeal.HostReads.entry_signal m ρ c,
    Cert.KernelIdeal.HostReads.entry_influence m ρ c, Cert.KernelIdeal.HostReads.entry_strength m ρ c]

/-- The result array after the whole program. -/
theorem result_eq (c : Dev nD) : W12 m ρ c (Proc.devRef .tc main_v102) = value m c := by
  rw [Cert.KernelIdeal.HostReads.exit_result m ρ c, Cert.KernelIdeal.Rescale.final_scaled (V11 m ρ) c,
    Cert.KernelIdeal.HostReads.mid_update m ρ c, Cert.KernelIdeal.Norms.final_upd (V7 m ρ) c, upd_entry m ρ c]
  funext i
  dsimp only [Cert.KernelIdeal.Rescale.scaled]
  rw [Cert.KernelIdeal.HostReads.mid_scale m ρ c]
  dsimp only [Cert.KernelIdeal.HostReads.X5, Cert.KernelIdeal.HostReads.X6]
  rw [Cert.KernelIdeal.Norms.final_accF (V7 m ρ) c,
    Cert.KernelIdeal.Norms.final_accU (V7 m ρ) c, halves_add, halves_add, upd_entry m ρ c,
    show Cert.KernelIdeal.Norms.fld (V7 m ρ) c = m ((c : Thread nD τ).loc main_arg0) from
      Cert.KernelIdeal.HostReads.entry_field m ρ c]
  rfl

end Cert.KernelIdeal.Whole

end
-- ==== Proof.lean ====
/-
  The certificate's five claims.

  Both programs compute, over the extended reals, the same function of their arguments (Proof/Blend.lean): the field
  blended with the signal by a clipped logistic weight of the influence map, rescaled by the ratio of the norms of the
  field and of the blend (or by 1 when the blend's norm is not positive).

  The reference is one straight line of host operations; its run and its stages are generated, and Proof/RefSide.lean
  reads the last stage as that function. The kernel program builds the same influence map on the host, then in a first
  tiled kernel computes the blend and, per half of the rows, the two sums of squares, accumulated tile after tile
  (Proof/Pieces.lean, Payloads.lean, Accum.lean, Finals0.lean); the host adds the halves, takes the square roots and the
  quotient (Proof/HostReads.lean); a second tiled kernel multiplies the blend by it (Proof/Region1.lean). The only law
  between the two is that a sum of extended reals may be regrouped (rows into halves of tiles), which holds without any
  finiteness assumption; the precondition is not used by the value claim. The ideal pass rewrote nothing, so the
  idealization claim is trivial, and the three frame claims are the generated frames and the reference's generated run.
-/
import proofs.«123638_j56650618634582_2_alg».proof.Defs
import proofs.«123638_j56650618634582_2_alg».proof.Proof.Gen.Kernel
import proofs.«123638_j56650618634582_2_alg».proof.Proof.Gen.Kernel.Frame
import proofs.«123638_j56650618634582_2_alg».proof.Proof.Gen.KernelIdeal
import proofs.«123638_j56650618634582_2_alg».proof.Proof.Gen.KernelIdeal.Frame
import proofs.«123638_j56650618634582_2_alg».proof.Proof.Gen.ReferenceIdeal
import proofs.«123638_j56650618634582_2_alg».proof.Proof.Gen.ReferenceIdeal.Run
import proofs.«123638_j56650618634582_2_alg».proof.Proof.Gen.ReferenceIdeal.Read
import proofs.«123638_j56650618634582_2_alg».proof.Proof.Gen.Pre_finite_inputs
import proofs.«123638_j56650618634582_2_alg».proof.Proof.RefSide
import proofs.«123638_j56650618634582_2_alg».proof.Proof.RunValue
import proofs.«123638_j56650618634582_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the same array: the blend, rescaled. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.value m c, ?_, ?_⟩
  · exact (θ_run Cert.KernelIdeal.defs _ _).mono
      (fun r h c => ⟨(h c).1.trans (Cert.KernelIdeal.Whole.result_eq m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v112_eq, Cert.ReferenceIdeal.RefValue.ref_is_result,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
